-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1002 : Shape := ⟨2, ![16384, 1002]⟩
abbrev S1000x128 : Shape := ⟨2, ![1000, 128]⟩
abbrev S130x16 : Shape := ⟨2, ![130, 16]⟩
abbrev S16 : Shape := ⟨1, ![16]⟩
abbrev S16x2 : Shape := ⟨2, ![16, 2]⟩
abbrev S2 : Shape := ⟨1, ![2]⟩
abbrev S_ : Shape := ⟨0, ![]⟩
abbrev S16384x1000 : Shape := ⟨2, ![16384, 1000]⟩
abbrev S16384 : Shape := ⟨1, ![16384]⟩

class Facts : Prop where
  bcast_S_S16384x1002 : S_.BroadcastsInDim S16384x1002 (![] : Fin 0 → Fin S16384x1002.rank)
  reducesTo_S16384x1002_S_d0_1 : S16384x1002.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S130x16 : S_.BroadcastsInDim S130x16 (![] : Fin 0 → Fin S130x16.rank)
  reducesTo_S130x16_S_d0_1 : S130x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_
  slices_S16384x1002_S16384x1000_0_2 : S16384x1002.Slices ![0, 2] S16384x1000
  bcast_S_S16384x1000 : S_.BroadcastsInDim S16384x1000 (![] : Fin 0 → Fin S16384x1000.rank)
  reducesTo_S16384x1000_S_d0_1 : S16384x1000.ReducesTo [0, 1] S_
  reducesTo_S16384x1000_S16384_d1 : S16384x1000.ReducesTo [1] S16384
  bcast_S_S16384 : S_.BroadcastsInDim S16384 (![] : Fin 0 → Fin S16384.rank)
  reducesTo_S16384_S_d0 : S16384.ReducesTo [0] S_

variable [Facts]

def fn_part2 {F : FTy → Type} [FloatOps F] (main_arg0 : FVec F S16384x1002 .f32) (main_v28 : IVec S_ 1) (main_v31 : IVec S16384x1000 1) (main_v32 : FVec F S16384x1000 .f32) (main_v33 : FVec F S16384x1000 .f32) : IVec S_ 1 :=
  let main_v34 : IVec S16384x1000 1 := cmpf .oeq main_v32 main_v33
  let main_v35 : IVec S16384x1000 1 := ori main_v31 main_v34
  let main_c_12 : IVec S_ 1 := constantI S_ 1 1#1
  let main_v36 : IVec S_ 1 := (fun x v => Host.reduce IntOp.andi x v reducesTo_S16384x1000_S_d0_1 h_S_) main_v35 main_c_12
  let main_v37 : IVec S_ 1 := andi main_v28 main_v36
  let main_v38 : FVec F S16384x1000 .f32 := (extractStridedSlice S16384x1000 ![0, 2] · slices_S16384x1002_S16384x1000_0_2) main_arg0
  let main_cst_13 : FVec F S_ .f32 := constant S_ .f32 0x00000000#32
  let main_v39 : FVec F S16384x1000 .f32 := broadcastInDim S16384x1000 ![] bcast_S_S16384x1000 main_cst_13
  let main_v40 : IVec S16384x1000 1 := cmpf .une main_v38 main_v39
  let main_v41 : FVec F S16384x1000 .f32 := uitofp .f32 main_v40
  let main_cst_14 : FVec F S_ .f32 := constant S_ .f32 0x00000000#32
  let main_v42 : FVec F S16384 .f32 := (fun x v => Host.reduceAdd x v reducesTo_S16384x1000_S16384_d1 h_S_) main_v41 main_cst_14
  let main_cst_15 : FVec F S_ .f32 := constant S_ .f32 0x00000000#32
  let main_v43 : FVec F S16384 .f32 := broadcastInDim S16384 ![] bcast_S_S16384 main_cst_15
  let main_v44 : IVec S16384 1 := cmpf .une main_v42 main_v43
  let main_c_16 : IVec S_ 1 := constantI S_ 1 1#1
  let main_v45 : IVec S_ 1 := (fun x v => Host.reduce IntOp.andi x v reducesTo_S16384_S_d0 h_S_) main_v44 main_c_16
  let main_v46 : IVec S_ 1 := andi main_v37 main_v45
  main_v46

def fn_part1 {F : FTy → Type} [FloatOps F] (main_arg0 : FVec F S16384x1002 .f32) (main_arg4 : FVec F S16x2 .f32) (main_arg5 : FVec F S2 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x2 .f32 := Host.absf main_arg4
  let main_cst_6 : FVec F S_ .f32 := constant S_ .f32 0x7F800000#32
  let main_v20 : FVec F S16x2 .f32 := broadcastInDim S16x2 ![] bcast_S_S16x2 main_cst_6
  let main_v21 : IVec S16x2 1 := cmpf .olt main_v19 main_v20
  let main_c_7 : IVec S_ 1 := constantI S_ 1 1#1
  let main_v22 : IVec S_ 1 := (fun x v => Host.reduce IntOp.andi x v reducesTo_S16x2_S_d0_1 h_S_) main_v21 main_c_7
  let main_v23 : IVec S_ 1 := andi main_v18 main_v22
  let main_v24 : FVec F S2 .f32 := Host.absf main_arg5
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : FVec F S16384x1000 .f32 := (extractStridedSlice S16384x1000 ![0, 2] · slices_S16384x1002_S16384x1000_0_2) main_arg0
  let main_cst_10 : FVec F S_ .f32 := constant S_ .f32 0x00000000#32
  let main_v30 : FVec F S16384x1000 .f32 := broadcastInDim S16384x1000 ![] bcast_S_S16384x1000 main_cst_10
  let main_v31 : IVec S16384x1000 1 := cmpf .oeq main_v29 main_v30
  let main_v32 : FVec F S16384x1000 .f32 := (extractStridedSlice S16384x1000 ![0, 2] · slices_S16384x1002_S16384x1000_0_2) main_arg0
  let main_cst_11 : FVec F S_ .f32 := constant S_ .f32 0x3F800000#32
  let main_v33 : FVec F S16384x1000 .f32 := broadcastInDim S16384x1000 ![] bcast_S_S16384x1000 main_cst_11
  fn_part2 (F := F) main_arg0 main_v28 main_v31 main_v32 main_v33

def fn {F : FTy → Type} [FloatOps F] (main_arg0 : FVec F S16384x1002 .f32) (main_arg1 : FVec F S1000x128 .f32) (main_arg2 : FVec F S130x16 .f32) (main_arg3 : FVec F S16 .f32) (main_arg4 : FVec F S16x2 .f32) (main_arg5 : FVec F S2 .f32) : IVec S_ 1 :=
  let main_v0 : FVec F S16384x1002 .f32 := Host.absf main_arg0
  let main_cst : FVec F S_ .f32 := constant S_ .f32 0x7F800000#32
  let main_v1 : FVec F S16384x1002 .f32 := broadcastInDim S16384x1002 ![] bcast_S_S16384x1002 main_cst
  let main_v2 : IVec S16384x1002 1 := cmpf .olt main_v0 main_v1
  let main_c : IVec S_ 1 := constantI S_ 1 1#1
  let main_v3 : IVec S_ 1 := (fun x v => Host.reduce IntOp.andi x v reducesTo_S16384x1002_S_d0_1 h_S_) main_v2 main_c
  let main_v4 : FVec F S1000x128 .f32 := Host.absf main_arg1
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_v9 : FVec F S130x16 .f32 := Host.absf main_arg2
  let main_cst_2 : FVec F S_ .f32 := constant S_ .f32 0x7F800000#32
  let main_v10 : FVec F S130x16 .f32 := broadcastInDim S130x16 ![] bcast_S_S130x16 main_cst_2
  let main_v11 : IVec S130x16 1 := cmpf .olt main_v9 main_v10
  let main_c_3 : IVec S_ 1 := constantI S_ 1 1#1
  let main_v12 : IVec S_ 1 := (fun x v => Host.reduce IntOp.andi x v reducesTo_S130x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg0 main_arg4 main_arg5 main_v13 main_v16
-- ==== Kernel.lean ====
abbrev S16384x1002 : Shape := ⟨2, ![16384, 1002]⟩
abbrev S1000x128 : Shape := ⟨2, ![1000, 128]⟩
abbrev S130x16 : Shape := ⟨2, ![130, 16]⟩
abbrev S16 : Shape := ⟨1, ![16]⟩
abbrev S16x2 : Shape := ⟨2, ![16, 2]⟩
abbrev S2 : Shape := ⟨1, ![2]⟩
abbrev S1002x16384 : Shape := ⟨2, ![1002, 16384]⟩
abbrev S1x16 : Shape := ⟨2, ![1, 16]⟩
abbrev S131x16 : Shape := ⟨2, ![131, 16]⟩
abbrev S16x131 : Shape := ⟨2, ![16, 131]⟩
abbrev S1x2 : Shape := ⟨2, ![1, 2]⟩
abbrev S17x2 : Shape := ⟨2, ![17, 2]⟩
abbrev S2x17 : Shape := ⟨2, ![2, 17]⟩
abbrev S2x16384 : Shape := ⟨2, ![2, 16384]⟩
abbrev S1002x2048 : Shape := ⟨2, ![1002, 2048]⟩
abbrev S2x2048 : Shape := ⟨2, ![2, 2048]⟩
abbrev S129x1002 : Shape := ⟨2, ![129, 1002]⟩
abbrev S128x1000 : Shape := ⟨2, ![128, 1000]⟩
abbrev S128x2 : Shape := ⟨2, ![128, 2]⟩
abbrev S128x1002 : Shape := ⟨2, ![128, 1002]⟩
abbrev S1x1000 : Shape := ⟨2, ![1, 1000]⟩
abbrev S1x1002 : Shape := ⟨2, ![1, 1002]⟩
abbrev S129x2048 : Shape := ⟨2, ![129, 2048]⟩
abbrev S128x2048 : Shape := ⟨2, ![128, 2048]⟩
abbrev S1x2048 : Shape := ⟨2, ![1, 2048]⟩
abbrev S131x2048 : Shape := ⟨2, ![131, 2048]⟩
abbrev S16x2048 : Shape := ⟨2, ![16, 2048]⟩
abbrev S17x2048 : Shape := ⟨2, ![17, 2048]⟩
abbrev S16384x2 : Shape := ⟨2, ![16384, 2]⟩

abbrev nBuf : Space → Nat
  | .hbm => 15
  | .vmem => 8
  | .smem => 0
  | _ => 0

abbrev bufTy : (tb : Table) → Fin (tcTables nBuf tb) → BufTy
  | .hbm, ⟨0, _⟩ => ⟨S16384x1002, .f32⟩
  | .hbm, ⟨1, _⟩ => ⟨S1000x128, .f32⟩
  | .hbm, ⟨2, _⟩ => ⟨S130x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S1002x16384, .f32⟩
  | .hbm, ⟨7, _⟩ => ⟨S1x16, .f32⟩
  | .hbm, ⟨8, _⟩ => ⟨S131x16, .f32⟩
  | .hbm, ⟨9, _⟩ => ⟨S16x131, .f32⟩
  | .hbm, ⟨10, _⟩ => ⟨S1x2, .f32⟩
  | .hbm, ⟨11, _⟩ => ⟨S17x2, .f32⟩
  | .hbm, ⟨12, _⟩ => ⟨S2x17, .f32⟩
  | .hbm, ⟨13, _⟩ => ⟨S2x16384, .f32⟩
  | .hbm, ⟨14, _⟩ => ⟨S16384x2, .f32⟩
  | .local _ .vmem, ⟨0, _⟩ => ⟨S1002x2048, .f32⟩
  | .local _ .vmem, ⟨1, _⟩ => ⟨S1002x2048, .f32⟩
  | .local _ .vmem, ⟨2, _⟩ => ⟨S1000x128, .f32⟩
  | .local _ .vmem, ⟨3, _⟩ => ⟨S16x131, .f32⟩
  | .local _ .vmem, ⟨4, _⟩ => ⟨S2x17, .f32⟩
  | .local _ .vmem, ⟨5, _⟩ => ⟨S2x2048, .f32⟩
  | .local _ .vmem, ⟨6, _⟩ => ⟨S2x2048, .f32⟩
  | .local _ .vmem, ⟨7, _⟩ => ⟨S129x1002, .bf16⟩
  | _, _ => ⟨S16384x1002, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1002x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x131 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x17 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S16384x1002_S1002x16384_1_0 : S16384x1002.Transposes [1, 0] S1002x16384
  bcast_S16_S1x16_1 : S16.BroadcastsInDim S1x16 (![1] : Fin 1 → Fin S1x16.rank)
  concatenates_S130x16_S1x16_S131x16_d0 : Shape.Concatenates [S130x16, S1x16] S131x16 0
  transposes_S131x16_S16x131_1_0 : S131x16.Transposes [1, 0] S16x131
  bcast_S2_S1x2_1 : S2.BroadcastsInDim S1x2 (![1] : Fin 1 → Fin S1x2.rank)
  concatenates_S16x2_S1x2_S17x2_d0 : Shape.Concatenates [S16x2, S1x2] S17x2 0
  transposes_S17x2_S2x17_1_0 : S17x2.Transposes [1, 0] S2x17
  inb_S1000x128_S1000x128_0_0 : ∀ a, (![0, 0] : Fin 2 → Nat) a + S1000x128.size a ≤ S1000x128.size a
  h_S1000x128 : 0 < S1000x128.numel
  transposes_S1000x128_p1_0_S128x1000 : S1000x128.Transposes [1, 0] S128x1000
  bitsLt_bf16_f32 : FTy.bits .bf16 < FTy.bits .f32
  concatenates_S128x2_S128x1000_S128x1002_d1 : Shape.Concatenates [S128x2, S128x1000] S128x1002 1
  concatenates_S1x2_S1x1000_S1x1002_d1 : Shape.Concatenates [S1x2, S1x1000] S1x1002 1
  concatenates_S128x1002_S1x1002_S129x1002_d0 : Shape.Concatenates [S128x1002, S1x1002] S129x1002 0
  inb_S129x1002_S129x1002_0_0 : ∀ a, (![0, 0] : Fin 2 → Nat) a + S129x1002.size a ≤ S129x1002.size a
  h_S129x1002 : 0 < S129x1002.numel
  shapeCasts_S129x1002_S129x1002 : S129x1002.ShapeCasts S129x1002
  packedbf16_S129x1002_S129x1002_0_0 : (Rect.unit (s := S129x1002) ![0, 0] S129x1002.size inb_S129x1002_S129x1002_0_0).PackedRows (EltTy.packing .bf16)
  inb_S1002x2048_S1002x2048_0_0 : ∀ a, (![0, 0] : Fin 2 → Nat) a + S1002x2048.size a ≤ S1002x2048.size a
  h_S1002x2048 : 0 < S1002x2048.numel
  shapeCasts_S1002x2048_S1002x2048 : S1002x2048.ShapeCasts S1002x2048
  slices_S129x2048_o0_0_S128x2048 : S129x2048.Slices ![0, 0] S128x2048
  slices_S129x2048_o128_0_S1x2048 : S129x2048.Slices ![128, 0] S1x2048
  broadcasts_S1x2048_S128x2048 : S1x2048.Broadcasts S128x2048
  inb_S1002x2048_S2x2048_0_0 : ∀ a, (![0, 0] : Fin 2 → Nat) a + S2x2048.size a ≤ S1002x2048.size a
  h_S2x2048 : 0 < S2x2048.numel
  shapeCasts_S2x2048_S2x2048 : S2x2048.ShapeCasts S2x2048
  concatenates_S2x2048_S128x2048_S1x2048_S131x2048_d0 : Shape.Concatenates [S2x2048, S128x2048, S1x2048] S131x2048 0
  inb_S16x131_S16x131_0_0 : ∀ a, (![0, 0] : Fin 2 → Nat) a + S16x131.size a ≤ S16x131.size a
  h_S16x131 : 0 < S16x131.numel
  shapeCasts_S16x131_S16x131 : S16x131.ShapeCasts S16x131
  concatenates_S16x2048_S1x2048_S17x2048_d0 : Shape.Concatenates [S16x2048, S1x2048] S17x2048 0
  inb_S2x17_S2x17_0_0 : ∀ a, (![0, 0] : Fin 2 → Nat) a + S2x17.size a ≤ S2x17.size a
  h_S2x17 : 0 < S2x17.numel
  shapeCasts_S2x17_S2x17 : S2x17.ShapeCasts S2x17
  inb_S2x2048_S2x2048_0_0 : ∀ a, (![0, 0] : Fin 2 → Nat) a + S2x2048.size a ≤ S2x2048.size a
  transposes_S2x16384_S16384x2_1_0 : S2x16384.Transposes [1, 0] S16384x2
  dot_S129x1002_S1002x2048_S129x2048_1_0_0_1_n_n_wf : DotDims.WF S129x1002 S1002x2048 S129x2048 [1] [0] [0] [1] [] []
  dot_S16x131_S131x2048_S16x2048_1_0_0_1_n_n_wf : DotDims.WF S16x131 S131x2048 S16x2048 [1] [0] [0] [1] [] []
  dot_S2x17_S17x2048_S2x2048_1_0_0_1_n_n_wf : DotDims.WF S2x17 S17x2048 S2x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1002x2048.size a ≤ S1002x16384.size a
  hwx0_0 : ∀ i : grid0.Coords, EltTy.bits .f32 = 32 ∨ (Rect.block (s := S1002x16384) S1002x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S1000x128.size a
  hwx0_1 : ∀ i : grid0.Coords, EltTy.bits .f32 = 32 ∨ (Rect.block (s := S1000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x131.size a ≤ S16x131.size a
  hwx0_2 : ∀ i : grid0.Coords, EltTy.bits .f32 = 32 ∨ (Rect.block (s := S16x131) S16x131.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x17.size a ≤ S2x17.size a
  hwx0_3 : ∀ i : grid0.Coords, EltTy.bits .f32 = 32 ∨ (Rect.block (s := S2x17) S2x17.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x2048.size a ≤ S2x16384.size a
  hwx0_4 : ∀ i : grid0.Coords, EltTy.bits .f32 = 32 ∨ (Rect.block (s := S2x16384) S2x2048.size (cc0_transform_4 i) (hinb0_4 i)).WholeWords (EltTy.packing .f32)

variable [Facts₀]

def dot_S129x1002_S1002x2048_S129x2048_1_0_0_1_n_n : DotDims S129x1002 S1002x2048 S129x2048 where
  lhsContracting := [1]
  rhsContracting := [0]
  lhsNonContracting := [0]
  rhsNonContracting := [1]
  lhsBatch := []
  rhsBatch := []
  wf := dot_S129x1002_S1002x2048_S129x2048_1_0_0_1_n_n_wf
def dot_S16x131_S131x2048_S16x2048_1_0_0_1_n_n : DotDims S16x131 S131x2048 S16x2048 where
  lhsContracting := [1]
  rhsContracting := [0]
  lhsNonContracting := [0]
  rhsNonContracting := [1]
  lhsBatch := []
  rhsBatch := []
  wf := dot_S16x131_S131x2048_S16x2048_1_0_0_1_n_n_wf
def dot_S2x17_S17x2048_S2x2048_1_0_0_1_n_n : DotDims S2x17 S17x2048 S2x2048 where
  lhsContracting := [1]
  rhsContracting := [0]
  lhsNonContracting := [0]
  rhsNonContracting := [1]
  lhsBatch := []
  rhsBatch := []
  wf := dot_S2x17_S17x2048_S2x2048_1_0_0_1_n_n_wf

abbrev win0_0 : Pipeline.Window sig grid0 :=
  Pipeline.Window.ofSpec (Memref.whole main_v0) S1002x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16x131.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2x17.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1002 : Shape := ⟨2, ![16384, 1002]⟩
abbrev S1000x128 : Shape := ⟨2, ![1000, 128]⟩
abbrev S130x16 : Shape := ⟨2, ![130, 16]⟩
abbrev S16 : Shape := ⟨1, ![16]⟩
abbrev S16x2 : Shape := ⟨2, ![16, 2]⟩
abbrev S2 : Shape := ⟨1, ![2]⟩
abbrev S16384x2 : Shape := ⟨2, ![16384, 2]⟩
abbrev S16384x1000 : Shape := ⟨2, ![16384, 1000]⟩
abbrev S_ : Shape := ⟨0, ![]⟩
abbrev S16384 : Shape := ⟨1, ![16384]⟩
abbrev S16384x1 : Shape := ⟨2, ![16384, 1]⟩
abbrev S16384x128 : Shape := ⟨2, ![16384, 128]⟩
abbrev S16384x130 : Shape := ⟨2, ![16384, 130]⟩
abbrev S16384x16 : Shape := ⟨2, ![16384, 16]⟩
abbrev S1x16 : Shape := ⟨2, ![1, 16]⟩
abbrev S1x2 : Shape := ⟨2, ![1, 2]⟩

abbrev nBuf : Space → Nat
  | .hbm => 28
  | .vmem => 0
  | .smem => 0
  | _ => 0

abbrev bufTy : (tb : Table) → Fin (tcTables nBuf tb) → BufTy
  | .hbm, ⟨0, _⟩ => ⟨S16384x1002, .f32⟩
  | .hbm, ⟨1, _⟩ => ⟨S1000x128, .f32⟩
  | .hbm, ⟨2, _⟩ => ⟨S130x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S16384x2, .f32⟩
  | .hbm, ⟨7, _⟩ => ⟨S16384x1000, .f32⟩
  | .hbm, ⟨8, _⟩ => ⟨S_, .f32⟩
  | .hbm, ⟨9, _⟩ => ⟨S16384x1000, .f32⟩
  | .hbm, ⟨10, _⟩ => ⟨S16384x1000, .i1⟩
  | .hbm, ⟨11, _⟩ => ⟨S16384x1000, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S16384x128, .f32⟩
  | .hbm, ⟨16, _⟩ => ⟨S16384x128, .f32⟩
  | .hbm, ⟨17, _⟩ => ⟨S16384x128, .f32⟩
  | .hbm, ⟨18, _⟩ => ⟨S16384x130, .f32⟩
  | .hbm, ⟨19, _⟩ => ⟨S16384x16, .f32⟩
  | .hbm, ⟨20, _⟩ => ⟨S1x16, .f32⟩
  | .hbm, ⟨21, _⟩ => ⟨S16384x16, .f32⟩
  | .hbm, ⟨22, _⟩ => ⟨S16384x16, .f32⟩
  | .hbm, ⟨23, _⟩ => ⟨S16384x16, .f32⟩
  | .hbm, ⟨24, _⟩ => ⟨S16384x2, .f32⟩
  | .hbm, ⟨25, _⟩ => ⟨S1x2, .f32⟩
  | .hbm, ⟨26, _⟩ => ⟨S16384x2, .f32⟩
  | .hbm, ⟨27, _⟩ => ⟨S16384x2, .f32⟩
  | _, _ => ⟨S16384x1002, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  slices_S16384x1002_S16384x2_0_0 : S16384x1002.Slices ![0, 0] S16384x2
  slices_S16384x1002_S16384x1000_0_2 : S16384x1002.Slices ![0, 2] S16384x1000
  bcast_S_S16384x1000 : S_.BroadcastsInDim S16384x1000 (![] : Fin 0 → Fin S16384x1000.rank)
  reducesTo_S16384x1000_S16384_d1 : S16384x1000.ReducesTo [1] S16384
  h_S_ : 0 < S_.numel
  bcast_S16384_S16384x1_0 : S16384.BroadcastsInDim S16384x1 (![0] : Fin 1 → Fin S16384x1.rank)
  bcast_S16384x1_S16384x128_0_1 : S16384x1.BroadcastsInDim S16384x128 (![0, 1] : Fin 2 → Fin S16384x128.rank)
  concatenates_S16384x2_S16384x128_S16384x130_d1 : Shape.Concatenates [S16384x2, S16384x128] S16384x130 1
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  dot_S16384x1000_S1000x128_S16384x128_1_0_0_1_n_n_wf : DotDims.WF S16384x1000 S1000x128 S16384x128 [1] [0] [0] [1] [] []
  dot_S16384x130_S130x16_S16384x16_1_0_0_1_n_n_wf : DotDims.WF S16384x130 S130x16 S16384x16 [1] [0] [0] [1] [] []
  dot_S16384x16_S16x2_S16384x2_1_0_0_1_n_n_wf : DotDims.WF S16384x16 S16x2 S16384x2 [1] [0] [0] [1] [] []

variable [Facts₀]

def dot_S16384x1000_S1000x128_S16384x128_1_0_0_1_n_n : DotDims S16384x1000 S1000x128 S16384x128 where
  lhsContracting := [1]
  rhsContracting := [0]
  lhsNonContracting := [0]
  rhsNonContracting := [1]
  lhsBatch := []
  rhsBatch := []
  wf := dot_S16384x1000_S1000x128_S16384x128_1_0_0_1_n_n_wf
def dot_S16384x130_S130x16_S16384x16_1_0_0_1_n_n : DotDims S16384x130 S130x16 S16384x16 where
  lhsContracting := [1]
  rhsContracting := [0]
  lhsNonContracting := [0]
  rhsNonContracting := [1]
  lhsBatch := []
  rhsBatch := []
  wf := dot_S16384x130_S130x16_S16384x16_1_0_0_1_n_n_wf
def dot_S16384x16_S16x2_S16384x2_1_0_0_1_n_n : DotDims S16384x16 S16x2 S16384x2 where
  lhsContracting := [1]
  rhsContracting := [0]
  lhsNonContracting := [0]
  rhsNonContracting := [1]
  lhsBatch := []
  rhsBatch := []
  wf := dot_S16384x16_S16x2_S16384x2_1_0_0_1_n_n_wf

class Facts : Prop extends Facts₀ where

variable [Facts]
-- ==== Proof.Forms.lean ====
/-
  The two programs' results written out, entry by entry, as explicit functions of the six argument arrays
  (src [16384,1002], embed [1000,128], w1 [130,16], b1 [16], w2 [16,2], b2 [2]) over the extended reals.

  Row b of src is two demographic entries followed by 1000 code entries. The reference forms, from the code
  entries, the indicator mask (1 where an entry is not 0), counts the indicators, divides the indicator-weighted
  sum of the embedding rows by the count, and feeds [demographics, mean] through tanh(x·w1 + b1)·w2 + b2.

  The kernel works on the transposed arrays, one block of 2048 rows of src at a time. It contracts the raw
  entries of a row of src (not their indicators) against a 129-row matrix built once from embed: rows 0..127 are
  embed transposed with two zero columns in front, row 128 is two zeros followed by ones; so entry r < 128 of
  the product is the entry-weighted sum of column r of embed and entry 128 is the sum of the code entries. The
  mean is the product with the reciprocal of that sum. The two biases ride as one extra contracted term against
  a constant 1. `rowOut` is this computation for one row of src, over the operands as the body reads them.
-/
import Idealize.ShloMosaic.PureOps.Ideal
import Idealize.ShloMosaic.PureOps.Ideal.Laws
import Idealize.ShloMosaic.Lib.ValueIdx

noncomputable section

open scoped BigOperators

namespace Cert.Forms

open Idealize.ShloMosaic Idealize.ShloMosaic.ValueIdx

/-- An a-by-b matrix of extended reals, indexed as the programs' arrays are. -/
abbrev Mat (a b : ℕ) : Type := (⟨2, ![a, b]⟩ : Shape).Idx → EReal
/-- A vector of a extended reals. -/
abbrev Vct (a : ℕ) : Type := (⟨1, ![a]⟩ : Shape).Idx → EReal

/-- The column of src that holds code v: the codes follow the two demographic columns. -/
abbrev codeCol (v : Fin 1000) : Fin 1002 := ⟨2 + v.val, by omega⟩
/-- The column of src that holds demographic entry d. -/
abbrev demCol (d : Fin 2) : Fin 1002 := ⟨d.val, by omega⟩

/-! ## The reference, entry by entry -/

/-- The indicator of code v in row b: 1 where the entry differs from 0, else 0. -/
def mask (src : Mat 16384 1002) (b : Fin 16384) (v : Fin 1000) : EReal :=
  (((Ideal.cmp .une (src (ix2 b (codeCol v))) 0).toNat : ℝ) : EReal)

/-- How many codes row b has: the sum of its indicators. -/
def count (src : Mat 16384 1002) (b : Fin 16384) : EReal := ∑ v : Fin 1000, mask src b v

/-- Entry e of the mean embedding of row b: the indicator-weighted sum of column e of embed over the count. -/
def refMean (src : Mat 16384 1002) (emb : Mat 1000 128) (b : Fin 16384) (e : Fin 128) : EReal :=
  Ideal.div (∑ v : Fin 1000, mask src b v * emb (ix2 v e)) (count src b)

/-- Entry k of the 130-long feature row of b: the two demographic entries, then the mean embedding. -/
def refX (src : Mat 16384 1002) (emb : Mat 1000 128) (b : Fin 16384) (k : Fin 130) : EReal :=
  if h : k.val < 2 then src (ix2 b (demCol ⟨k.val, h⟩)) else refMean src emb b ⟨k.val - 2, by omega⟩

/-- Hidden unit j of row b before the tanh. -/
def refPre (src : Mat 16384 1002) (emb : Mat 1000 128) (w1 : Mat 130 16) (b1 : Vct 16) (b : Fin 16384) (j : Fin 16) : EReal :=
  (∑ k : Fin 130, refX src emb b k * w1 (ix2 k j)) + b1 (ix1 j)

/-- Output o of row b, as the reference computes it. -/
def refOut (src : Mat 16384 1002) (emb : Mat 1000 128) (w1 : Mat 130 16) (b1 : Vct 16) (w2 : Mat 16 2) (b2 : Vct 2)
    (b : Fin 16384) (o : Fin 2) : EReal :=
  (∑ j : Fin 16, Ideal.tanh (refPre src emb w1 b1 b j) * w2 (ix2 j o)) + b2 (ix1 o)

/-! ## The kernel's body on one row of src -/

/-- The 129-by-1002 matrix the first grid point builds from embed: two zero columns, then embed transposed
    (rows 0..127) over a row of ones (row 128). -/
def ew (emb : Mat 1000 128) (r : Fin 129) (v : Fin 1002) : EReal :=
  if hv : v.val < 2 then 0
  else if hr : r.val < 128 then emb (ix2 (⟨v.val - 2, by omega⟩ : Fin 1000) (⟨r.val, hr⟩ : Fin 128)) else 1

/-- The same as an array. -/
def ewMat (emb : Mat 1000 128) : Mat 129 1002 := fun i => ew emb (i 0) (i 1)

/-- Entry r of the first product: row r of the built matrix against the row of src (`xcol`: its 1002 entries). -/
def rowT (xs : Mat 129 1002) (xcol : Fin 1002 → EReal) (r : Fin 129) : EReal := ∑ v : Fin 1002, xs (ix2 r v) * xcol v

/-- Entry k of the 131-long operand of the second product: the two demographic entries (`dcol`), the 128 means
    (each a product with the reciprocal of entry 128 of the first product), and a constant 1 for the bias. -/
def rowRhs (xs : Mat 129 1002) (xcol : Fin 1002 → EReal) (dcol : Fin 2 → EReal) (k : Fin 131) : EReal :=
  if h : k.val < 2 then dcol ⟨k.val, h⟩
  else if h2 : k.val < 130 then
    rowT xs xcol (⟨k.val - 2, by omega⟩ : Fin 129) * Ideal.div 1 (rowT xs xcol (⟨128, by omega⟩ : Fin 129))
  else 1

/-- Hidden unit j before the tanh: row j of the 16-by-131 weight operand against `rowRhs`. -/
def rowPre (xs : Mat 129 1002) (xcol : Fin 1002 → EReal) (dcol : Fin 2 → EReal) (x2 : Mat 16 131) (j : Fin 16) : EReal :=
  ∑ k : Fin 131, x2 (ix2 j k) * rowRhs xs xcol dcol k

/-- Entry k of the 17-long operand of the third product: the 16 hidden units after tanh, and a constant 1. -/
def rowH (xs : Mat 129 1002) (xcol : Fin 1002 → EReal) (dcol : Fin 2 → EReal) (x2 : Mat 16 131) (k : Fin 17) : EReal :=
  if h : k.val < 16 then Ideal.tanh (rowPre xs xcol dcol x2 (⟨k.val, h⟩ : Fin 16)) else 1

/-- Output o for one row of src, as the body computes it from its operands. -/
def rowOut (xs : Mat 129 1002) (xcol : Fin 1002 → EReal) (dcol : Fin 2 → EReal) (x2 : Mat 16 131) (x3 : Mat 2 17)
    (o : Fin 2) : EReal :=
  ∑ k : Fin 17, x3 (ix2 o k) * rowH xs xcol dcol x2 k

/-! ## The kernel's operands from the arguments -/

/-- The 16-by-131 operand: w1 with b1 appended as row 130, transposed. -/
def w1ext (w1 : Mat 130 16) (b1 : Vct 16) : Mat 16 131 :=
  fun i => if h : (i 1).val < 130 then w1 (ix2 (⟨(i 1).val, h⟩ : Fin 130) (i 0)) else b1 (ix1 (i 0))

/-- The 2-by-17 operand: w2 with b2 appended as row 16, transposed. -/
def w2ext (w2 : Mat 16 2) (b2 : Vct 2) : Mat 2 17 :=
  fun i => if h : (i 1).val < 16 then w2 (ix2 (⟨(i 1).val, h⟩ : Fin 16) (i 0)) else b2 (ix1 (i 0))

/-- Output o of row b, as the kernel computes it from the argument arrays. -/
def kerOut (src : Mat 16384 1002) (emb : Mat 1000 128) (w1 : Mat 130 16) (b1 : Vct 16) (w2 : Mat 16 2) (b2 : Vct 2)
    (b : Fin 16384) (o : Fin 2) : EReal :=
  rowOut (ewMat emb) (fun v => src (ix2 b v)) (fun d => src (ix2 b (demCol d))) (w1ext w1 b1) (w2ext w2 b2) o

end Cert.Forms

end
-- ==== Proof.RefRead.lean ====
/-
  The reference program's result, read one entry at a time.

  Each stage of the reference is read at explicit coordinates and identified with the matching explicit formula:
  the indicator of a code, the count of a row's indicators, the mean embedding, the 130-long feature row (two
  demographic entries followed by the mean), the hidden pre-activation, and the output.
-/
import proofs.«100113_g32091995636153_cont_8to1_b_1391_22_alg».proof.Proof.Gen.ReferenceIdeal.Read
import proofs.«100113_g32091995636153_cont_8to1_b_1391_22_alg».proof.Proof.Forms
import Idealize.ShloMosaic.Lib.Pipeline.Value
import Idealize.ShloMosaic.Lib.ValueIdx
import Idealize.ShloMosaic.PureOps.Ideal.Laws

noncomputable section

open scoped BigOperators

namespace Cert.RefRead

open Cert.ReferenceIdeal Cert.ReferenceIdeal.Gen Cert.ReferenceIdeal.Read Cert.Forms
open Idealize.ShloMosaic Idealize.ShloMosaic.ValueIdx

/-- The converted comparison at row b, code v is the indicator of that code. -/
theorem mask_apply (x0 : Mat 16384 1002) (b : Fin 16384) (v : Fin 1000) :
    val_main_v4 (F := Ideal) x0 (ix2 b v) = mask x0 b v := by
  rw [val_main_v4_apply, val_main_v3_apply, val_main_v1_apply, val_main_v2_apply, val_main_cst_apply]
  have e : idx_main_v1 (ix2 b v) = ix2 b (codeCol v) :=
    funext fun a => Fin.ext (by match a with | ⟨0, _⟩ => rfl | ⟨1, _⟩ => rfl)
  rw [e, Ideal.cmpf_def, Ideal.ofBits_def, Ideal.ofBits_zero_f32]
  rfl

/-- The row sum of the indicators is the count. -/
theorem count_apply (x0 : Mat 16384 1002) (b : Fin 16384) :
    val_main_v5 (F := Ideal) x0 (ix1 b) = Forms.count x0 b := by
  rw [val_main_v5_apply, val_main_cst_0_apply, Ideal.ofBits_def, Ideal.ofBits_zero_f32, zero_add]
  unfold Forms.count
  refine Finset.sum_congr rfl fun v _ => ?_
  have e : idx_main_v5 (ix1 b) v = ix2 b v :=
    funext fun a => Fin.ext (by match a with | ⟨0, _⟩ => rfl | ⟨1, _⟩ => rfl)
  rw [e, mask_apply]

/-- The count, broadcast along the embedding axis. -/
theorem countB_apply (x0 : Mat 16384 1002) (b : Fin 16384) (e : Fin 128) :
    val_main_v8 (F := Ideal) x0 (ix2 b e) = Forms.count x0 b := by
  rw [val_main_v8_apply, val_main_v6_apply]
  have h : idx_main_v6 (idx_main_v8 (ix2 b e)) = ix1 b :=
    funext fun a => Fin.ext (by match a with | ⟨0, _⟩ => rfl)
  rw [h, count_apply]

/-- The indicator-weighted sum of column e of the embedding table. -/
theorem msum_apply (x0 : Mat 16384 1002) (x1 : Mat 1000 128) (b : Fin 16384) (e : Fin 128) :
    val_main_v7 (F := Ideal) x0 x1 (ix2 b e) = ∑ v : Fin 1000, mask x0 b v * x1 (ix2 v e) := by
  rw [val_main_v7_apply]
  refine Finset.sum_congr rfl fun v _ => ?_
  have el : lidx_main_v7 (ix2 b e) v = ix2 b v :=
    funext fun a => Fin.ext (by match a with | ⟨0, _⟩ => rfl | ⟨1, _⟩ => rfl)
  have er : ridx_main_v7 (ix2 b e) v = ix2 v e :=
    funext fun a => Fin.ext (by match a with | ⟨0, _⟩ => rfl | ⟨1, _⟩ => rfl)
  rw [el, er, mask_apply]

/-- The quotient is the mean embedding. -/
theorem mean_apply (x0 : Mat 16384 1002) (x1 : Mat 1000 128) (b : Fin 16384) (e : Fin 128) :
    val_main_v9 (F := Ideal) x0 x1 (ix2 b e) = refMean x0 x1 b e := by
  rw [val_main_v9_apply, Ideal.hostDivf_def, msum_apply, countB_apply]
  rfl

/-- The feature row: a column below 2 comes from the demographic slice, a column from 2 on from the mean. -/
theorem feat_apply (x0 : Mat 16384 1002) (x1 : Mat 1000 128) (b : Fin 16384) (k : Fin 130) :
    val_main_v10 (F := Ideal) x0 x1 (ix2 b k) = refX x0 x1 b k := by
  unfold val_main_v10 refX
  by_cases h : k.val < 2
  · rw [dif_pos h]
    refine (concatenate_pair_apply_left (1 : Fin S16384x130.rank) _ _
      concatenates_S16384x2_S16384x128_S16384x130_d1 (ix2 b k) rfl (ix2 b (⟨k.val, h⟩ : Fin 2)) ?_).trans ?_
    · intro a
      match a with
      | ⟨0, _⟩ => rfl
      | ⟨1, _⟩ => rfl
    · rw [val_main_v0_apply]
      exact congrArg x0 (funext fun a => Fin.ext (by match a with | ⟨0, _⟩ => rfl | ⟨1, _⟩ => rfl))
  · rw [dif_neg h]
    have hk : k.val - 2 < 128 := by have := k.isLt; omega
    refine (concatenate_pair_apply_right (1 : Fin S16384x130.rank) _ _
      concatenates_S16384x2_S16384x128_S16384x130_d1 (ix2 b k) rfl rfl (ix2 b (⟨k.val - 2, hk⟩ : Fin 128)) ?_ ?_).trans ?_
    · intro a ha
      match a, ha with
      | ⟨0, _⟩, _ => rfl
      | ⟨1, _⟩, ha => exact absurd rfl ha
    · show k.val - 2 + 2 = k.val
      omega
    · exact mean_apply x0 x1 b ⟨k.val - 2, hk⟩

/-- The first dense layer's product. -/
theorem dense1_apply (x0 : Mat 16384 1002) (x1 : Mat 1000 128) (x2 : Mat 130 16) (b : Fin 16384) (j : Fin 16) :
    val_main_v11 (F := Ideal) x0 x1 x2 (ix2 b j) = ∑ k : Fin 130, refX x0 x1 b k * x2 (ix2 k j) := by
  rw [val_main_v11_apply]
  refine Finset.sum_congr rfl fun k _ => ?_
  have el : lidx_main_v11 (ix2 b j) k = ix2 b k :=
    funext fun a => Fin.ext (by match a with | ⟨0, _⟩ => rfl | ⟨1, _⟩ => rfl)
  have er : ridx_main_v11 (ix2 b j) k = ix2 k j :=
    funext fun a => Fin.ext (by match a with | ⟨0, _⟩ => rfl | ⟨1, _⟩ => rfl)
  rw [el, er, feat_apply]

/-- The first bias, broadcast over the rows. -/
theorem bias1_apply (x3 : Vct 16) (b : Fin 16384) (j : Fin 16) :
    val_main_v13 (F := Ideal) x3 (ix2 b j) = x3 (ix1 j) := by
  rw [val_main_v13_apply, val_main_v12_apply]
  exact congrArg x3 (funext fun a => Fin.ext (by match a with | ⟨0, _⟩ => rfl))

/-- The hidden unit before the tanh. -/
theorem pre_apply (x0 : Mat 16384 1002) (x1 : Mat 1000 128) (x2 : Mat 130 16) (x3 : Vct 16) (b : Fin 16384) (j : Fin 16) :
    val_main_v14 (F := Ideal) x0 x1 x2 x3 (ix2 b j) = refPre x0 x1 x2 x3 b j := by
  rw [val_main_v14_apply, Ideal.addf_def, dense1_apply, bias1_apply]
  rfl

/-- The hidden unit. -/
theorem hid_apply (x0 : Mat 16384 1002) (x1 : Mat 1000 128) (x2 : Mat 130 16) (x3 : Vct 16) (b : Fin 16384) (j : Fin 16) :
    val_main_v15 (F := Ideal) x0 x1 x2 x3 (ix2 b j) = Ideal.tanh (refPre x0 x1 x2 x3 b j) := by
  rw [val_main_v15_apply, Ideal.hostUnary_tanh_def, pre_apply]

/-- The second dense layer's product. -/
theorem dense2_apply (x0 : Mat 16384 1002) (x1 : Mat 1000 128) (x2 : Mat 130 16) (x3 : Vct 16) (x4 : Mat 16 2)
    (b : Fin 16384) (o : Fin 2) :
    val_main_v16 (F := Ideal) x0 x1 x2 x3 x4 (ix2 b o)
      = ∑ j : Fin 16, Ideal.tanh (refPre x0 x1 x2 x3 b j) * x4 (ix2 j o) := by
  rw [val_main_v16_apply]
  refine Finset.sum_congr rfl fun j _ => ?_
  have el : lidx_main_v16 (ix2 b o) j = ix2 b j :=
    funext fun a => Fin.ext (by match a with | ⟨0, _⟩ => rfl | ⟨1, _⟩ => rfl)
  have er : ridx_main_v16 (ix2 b o) j = ix2 j o :=
    funext fun a => Fin.ext (by match a with | ⟨0, _⟩ => rfl | ⟨1, _⟩ => rfl)
  rw [el, er, hid_apply]

/-- The second bias, broadcast over the rows. -/
theorem bias2_apply (x5 : Vct 2) (b : Fin 16384) (o : Fin 2) :
    val_main_v18 (F := Ideal) x5 (ix2 b o) = x5 (ix1 o) := by
  rw [val_main_v18_apply, val_main_v17_apply]
  exact congrArg x5 (funext fun a => Fin.ext (by match a with | ⟨0, _⟩ => rfl))

/-- The reference's result at row b, output o is the explicit formula. -/
theorem ref_apply (x0 : Cert.Forms.Mat 16384 1002) (x1 : Cert.Forms.Mat 1000 128) (x2 : Cert.Forms.Mat 130 16) (x3 : Cert.Forms.Vct 16) (x4 : Cert.Forms.Mat 16 2) (x5 : Cert.Forms.Vct 2) (b : Fin 16384) (o : Fin 2) :
    Cert.ReferenceIdeal.Read.val_main_v19 (F := Ideal) x0 x1 x2 x3 x4 x5 (ValueIdx.ix2 b o) = Cert.Forms.refOut x0 x1 x2 x3 x4 x5 b o := by
  rw [val_main_v19_apply, Ideal.addf_def, dense2_apply, bias2_apply]
  rfl

end Cert.RefRead

end
-- ==== Proof.PreFacts.lean ====
/-
  The precondition read at the ideal values. Its last two conjuncts say, of the code entries of src (columns 2..1001):
  every one of them is 0 or 1, and no row's count of nonzero entries is 0. Each conjunct is an "all" over an array of
  one-bit words: a reduction by "and" that came out 1, so every word of the array is 1; a word of the first array is
  the "or" of two equality comparisons of one code entry against 0 and against 1, and a word of the second compares a
  row's sum of nonzero-indicators, which is that row's count, against 0.
-/
import proofs.«100113_g32091995636153_cont_8to1_b_1391_22_alg».proof.Pre_finite_inputs
import proofs.«100113_g32091995636153_cont_8to1_b_1391_22_alg».proof.Proof.Forms
import Idealize.ShloMosaic.Lib.ReduceAll
import Idealize.ShloMosaic.Lib.ValueIdx
import Idealize.ShloMosaic.Lib.Pipeline.Value
import Idealize.ShloMosaic.PureOps.Ideal.Laws

noncomputable section

open scoped BigOperators

namespace Cert.PreFacts

open Idealize.ShloMosaic Idealize.ShloMosaic.ValueIdx Cert.Pre_finite_inputs Cert.Pre_finite_inputs.Facts Cert.Forms

variable [Cert.Pre_finite_inputs.Facts]

/-- A rank-zero array has one index. -/
instance : Subsingleton S_.Idx := ⟨fun a b => funext fun d => d.elim0⟩

/-! ## Words and constants -/

theorem ofBool_eq_one (c : Bool) : BitVec.ofBool c = 1#1 ↔ c = true := by cases c <;> decide

/-- An equality comparison's word is 1 exactly when the two values are equal. -/
theorem cmp_oeq_eq_one (x y : EReal) : Ideal.cmp .oeq x y = 1#1 ↔ x = y := by
  show BitVec.ofBool (decide (x = y)) = 1#1 ↔ x = y
  rw [ofBool_eq_one, decide_eq_true_iff]

/-- A disequality comparison's word is 1 exactly when the two values differ. -/
theorem cmp_une_eq_one (x y : EReal) : Ideal.cmp .une x y = 1#1 ↔ x ≠ y := by
  show BitVec.ofBool (decide (x ≠ y)) = 1#1 ↔ x ≠ y
  rw [ofBool_eq_one, decide_eq_true_iff]

/-- The pattern 0x3F800000 is the number 1: exponent field 127, significand field 0. -/
theorem ofBits_one_f32 : Ideal.ofBits .f32 0x3F800000#32 = 1 := by
  simp [Ideal.ofBits, Ideal.ieee]
  rw [← EReal.coe_mul, ← EReal.coe_one]
  congr 1
  norm_num

/-! ## The arrays of the two conjuncts -/

/-- The code entries of src: columns 2..1001. -/
def codes (a0 : FVec Ideal S16384x1002 .f32) : FVec Ideal S16384x1000 .f32 :=
  extractStridedSlice S16384x1000 ![0, 2] a0 slices_S16384x1002_S16384x1000_0_2

/-- The constant with pattern c, spread over the code entries' shape. -/
def splat (c : BitVec 32) : FVec Ideal S16384x1000 .f32 :=
  broadcastInDim S16384x1000 ![] bcast_S_S16384x1000 (constant (F := Ideal) S_ .f32 c)

/-- The seventh conjunct's array: at (b, v), is code entry (b, v) equal to 0 or equal to 1. -/
def isBit (a0 : FVec Ideal S16384x1002 .f32) : IVec S16384x1000 1 :=
  ori (cmpf .oeq (codes a0) (splat 0x00000000#32)) (cmpf .oeq (codes a0) (splat 0x3F800000#32))

/-- The indicators: at (b, v), 1 where code entry (b, v) is not 0, else 0, as a number. -/
def ind (a0 : FVec Ideal S16384x1002 .f32) : FVec Ideal S16384x1000 .f32 :=
  uitofp .f32 (cmpf .une (codes a0) (splat 0x00000000#32))

/-- The rows' sums of indicators. -/
def rowSum (a0 : FVec Ideal S16384x1002 .f32) : FVec Ideal S16384 .f32 :=
  Host.reduceAdd (ind a0) (constant (F := Ideal) S_ .f32 0x00000000#32) reducesTo_S16384x1000_S16384_d1 h_S_

/-- The constant 0, spread over the rows. -/
def zeroRow : FVec Ideal S16384 .f32 :=
  broadcastInDim S16384 ![] bcast_S_S16384 (constant (F := Ideal) S_ .f32 0x00000000#32)

/-- The eighth conjunct's array: at b, is row b's sum of indicators different from 0. -/
def hasCode (a0 : FVec Ideal S16384x1002 .f32) : IVec S16384 1 :=
  cmpf .une (rowSum a0) zeroRow

/-- The precondition is a conjunction whose last two members are the "all" of the two arrays above. -/
theorem fn_shape (a0 : FVec Ideal S16384x1002 .f32) (a1 : FVec Ideal S1000x128 .f32) (a2 : FVec Ideal S130x16 .f32)
    (a3 : FVec Ideal S16 .f32) (a4 : FVec Ideal S16x2 .f32) (a5 : FVec Ideal S2 .f32) :
    ∃ X : IVec S_ 1, Cert.Pre_finite_inputs.fn (F := Ideal) a0 a1 a2 a3 a4 a5
      = andi (andi X (Host.reduce IntOp.andi (isBit a0) (constantI S_ 1 1#1) reducesTo_S16384x1000_S_d0_1 h_S_))
          (Host.reduce IntOp.andi (hasCode a0) (constantI S_ 1 1#1) reducesTo_S16384_S_d0 h_S_) :=
  ⟨_, rfl⟩

/-! ## The arrays read at an index -/

/-- Code entry (b, v) is entry (b, 2 + v) of src. -/
theorem codes_apply (a0 : Mat 16384 1002) (b : Fin 16384) (v : Fin 1000) :
    codes a0 (ix2 b v) = a0 (ix2 b (codeCol v)) := by
  unfold codes
  exact extractStridedSlice_apply ![0, 2] a0 slices_S16384x1002_S16384x1000_0_2 (ix2 b v) (ix2 b (codeCol v))
    (fun a => match a with
      | ⟨0, _⟩ => by show b.val = 0 + b.val; omega
      | ⟨1, _⟩ => by show 2 + v.val = 2 + v.val; rfl)

/-- A spread constant is its value everywhere. -/
theorem splat_apply (c : BitVec 32) (i : S16384x1000.Idx) : splat c i = Ideal.ofBits .f32 c := rfl

theorem zeroRow_apply (i : S16384.Idx) : zeroRow i = Ideal.ofBits .f32 0x00000000#32 := rfl

/-- The seventh conjunct's word at (b, v). -/
theorem isBit_apply (a0 : Mat 16384 1002) (b : Fin 16384) (v : Fin 1000) :
    isBit a0 (ix2 b v)
      = IntOp.ori (Ideal.cmp .oeq (a0 (ix2 b (codeCol v))) 0) (Ideal.cmp .oeq (a0 (ix2 b (codeCol v))) 1) := by
  show IntOp.ori (Ideal.cmp .oeq (codes a0 (ix2 b v)) (splat 0x00000000#32 (ix2 b v)))
      (Ideal.cmp .oeq (codes a0 (ix2 b v)) (splat 0x3F800000#32 (ix2 b v))) = _
  rw [codes_apply, splat_apply, splat_apply, Ideal.ofBits_zero_f32, ofBits_one_f32]

/-- The indicator at (b, v) is the mask of the reference. -/
theorem ind_apply (a0 : Mat 16384 1002) (b : Fin 16384) (v : Fin 1000) : ind a0 (ix2 b v) = mask a0 b v := by
  show (((Ideal.cmp .une (codes a0 (ix2 b v)) (splat 0x00000000#32 (ix2 b v))).toNat : ℝ) : EReal) = _
  rw [codes_apply, splat_apply, Ideal.ofBits_zero_f32]
  rfl

/-- Row b's sum of indicators is the count of the reference. -/
theorem rowSum_apply (a0 : Mat 16384 1002) (b : Fin 16384) : rowSum a0 (ix1 b) = Cert.Forms.count a0 b := by
  unfold rowSum
  simp only [Host.reduceAdd, Ideal.hostReduceAdd_def]
  rw [Ideal.hostReduceAdd_single reducesTo_S16384x1000_S16384_d1 (by decide)]
  unfold Cert.Forms.count
  refine (congrArg₂ (· + ·) Ideal.ofBits_zero_f32 (Finset.sum_congr rfl fun k _ => ?_)).trans (zero_add _)
  rw [← ind_apply a0 b k]
  exact congrArg (ind a0) (funext fun a => Fin.ext (by match a with | ⟨0, _⟩ => rfl | ⟨1, _⟩ => rfl))

/-- The eighth conjunct's word at b. -/
theorem hasCode_apply (a0 : Mat 16384 1002) (b : Fin 16384) :
    hasCode a0 (ix1 b) = Ideal.cmp .une (Cert.Forms.count a0 b) 0 := by
  unfold hasCode
  rw [cmpf_apply, Ideal.cmpf_def, rowSum_apply, zeroRow_apply, Ideal.ofBits_zero_f32]

/-! ## The precondition decoded -/

theorem facts_of_pre (a0 : Cert.Forms.Mat 16384 1002) (a1 : Cert.Forms.Mat 1000 128) (a2 : Cert.Forms.Mat 130 16)
    (a3 : Cert.Forms.Vct 16) (a4 : Cert.Forms.Mat 16 2) (a5 : Cert.Forms.Vct 2)
    (h : Cert.Pre_finite_inputs.fn (F := Ideal) a0 a1 a2 a3 a4 a5 = fun _ => 1#1) :
    (∀ (b : Fin 16384) (v : Fin 1000),
        a0 (ValueIdx.ix2 b (Cert.Forms.codeCol v)) = 0 ∨ a0 (ValueIdx.ix2 b (Cert.Forms.codeCol v)) = 1)
      ∧ (∀ b : Fin 16384, Cert.Forms.count a0 b ≠ 0) := by
  obtain ⟨X, hX⟩ := fn_shape a0 a1 a2 a3 a4 a5
  have h0 : IntOp.andi (IntOp.andi (X ix0)
        (Host.reduce IntOp.andi (isBit a0) (constantI S_ 1 1#1) reducesTo_S16384x1000_S_d0_1 h_S_ ix0))
      (Host.reduce IntOp.andi (hasCode a0) (constantI S_ 1 1#1) reducesTo_S16384_S_d0 h_S_ ix0) = 1#1 :=
    (congrFun hX ix0).symm.trans (congrFun h ix0)
  obtain ⟨h67, h8⟩ := IntOp.andi_eq_one.1 h0
  obtain ⟨-, h7⟩ := IntOp.andi_eq_one.1 h67
  refine ⟨fun b v => ?_, fun b => ?_⟩
  · have e := Host.reduce_andi_all _ _ _ _ _ h7 (ix2 b v)
    rw [isBit_apply] at e
    rcases IntOp.ori_eq_one.1 e with e0 | e1
    · exact Or.inl ((cmp_oeq_eq_one _ _).1 e0)
    · exact Or.inr ((cmp_oeq_eq_one _ _).1 e1)
  · have e := Host.reduce_andi_all _ _ _ _ _ h8 (ix1 b)
    rw [hasCode_apply] at e
    exact (cmp_une_eq_one _ _).1 e

end Cert.PreFacts

end
-- ==== Proof.Bridge.lean ====
/-
  The kernel's formula and the reference's formula for one row of src agree, when the row's code entries are
  all 0 or 1 and the row has at least one code.

  Under that hypothesis the indicator of a code entry is the entry itself, so the kernel's entry-weighted sums
  are the reference's indicator-weighted sums and the sum of the entries is the count. The count is then a
  nonzero real, and dividing by a nonzero real is multiplying by its reciprocal. The biases, which the kernel
  contracts against a constant 1 as one extra term, come out of the sums as the reference's added terms.
  Only commutativity of the product, zero_mul, one_mul and mul_one are used on the extended reals.
-/
import proofs.«100113_g32091995636153_cont_8to1_b_1391_22_alg».proof.Proof.Forms

noncomputable section

open scoped BigOperators

namespace Cert.Bridge

open Idealize.ShloMosaic Idealize.ShloMosaic.ValueIdx Cert.Forms

/-! ## The indicator of a 0/1 entry, and the count as a real -/

/-- The indicator of 0 is 0. -/
theorem cmp_zero : (((Ideal.cmp .une (0 : EReal) 0).toNat : ℝ) : EReal) = 0 := by
  simp [Ideal.cmp]

/-- The indicator of 1 is 1. -/
theorem cmp_one : (((Ideal.cmp .une (1 : EReal) 0).toNat : ℝ) : EReal) = 1 := by
  simp [Ideal.cmp]

/-- Where a code entry is 0 or 1 its indicator is the entry. -/
theorem mask_eq (src : Mat 16384 1002) (b : Fin 16384) (v : Fin 1000)
    (h : src (ix2 b (codeCol v)) = 0 ∨ src (ix2 b (codeCol v)) = 1) :
    mask src b v = src (ix2 b (codeCol v)) := by
  unfold mask
  rcases h with h | h
  · rw [h]; exact cmp_zero
  · rw [h]; exact cmp_one

/-- The coercion of the reals into the extended reals goes through a finite sum. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The count of a row is a real. -/
theorem count_coe (src : Mat 16384 1002) (b : Fin 16384) :
    count src b = ((∑ v : Fin 1000, ((Ideal.cmp .une (src (ix2 b (codeCol v))) 0).toNat : ℝ) : ℝ) : EReal) := by
  unfold count
  rw [coe_sum]
  rfl

/-! ## The first product -/

/-- The built matrix on a code column, rows 0..127: the embedding entry. -/
theorem ew_codeCol_lt (emb : Mat 1000 128) (r : Fin 129) (hr : r.val < 128) (v : Fin 1000) :
    ew emb r (codeCol v) = emb (ix2 v ⟨r.val, hr⟩) := by
  unfold ew
  rw [dif_neg (by show ¬ 2 + v.val < 2; omega), dif_pos hr]
  have e : (⟨(codeCol v).val - 2, by show 2 + v.val - 2 < 1000; omega⟩ : Fin 1000) = v :=
    Fin.ext (by show 2 + v.val - 2 = v.val; omega)
  rw [e]

/-- The built matrix on a code column, row 128: one. -/
theorem ew_codeCol_last (emb : Mat 1000 128) (v : Fin 1000) :
    ew emb (⟨128, by omega⟩ : Fin 129) (codeCol v) = 1 := by
  unfold ew
  rw [dif_neg (by show ¬ 2 + v.val < 2; omega), dif_neg (by show ¬ 128 < 128; omega)]

/-- The two zero columns drop out of the first product: it is a sum over the code columns. -/
theorem rowT_split (emb : Mat 1000 128) (xcol : Fin 1002 → EReal) (r : Fin 129) :
    rowT (ewMat emb) xcol r = ∑ v : Fin 1000, ew emb r (codeCol v) * xcol (codeCol v) := by
  unfold rowT
  refine (Fin.sum_univ_add (a := 2) (b := 1000) (fun v : Fin 1002 => ewMat emb (ix2 r v) * xcol v)).trans ?_
  have h0 : ∑ i : Fin 2, ewMat emb (ix2 r (Fin.castAdd 1000 i)) * xcol (Fin.castAdd 1000 i) = 0 := by
    refine Finset.sum_eq_zero (fun i _ => ?_)
    show ew emb r (Fin.castAdd 1000 i) * xcol (Fin.castAdd 1000 i) = 0
    unfold ew
    rw [dif_pos (by show i.val < 2; omega), zero_mul]
  rw [h0, zero_add]
  rfl

/-- Entry r < 128 of the first product is the indicator-weighted sum of column r of the embedding. -/
theorem rowT_lt (src : Mat 16384 1002) (emb : Mat 1000 128) (b : Fin 16384)
    (h01 : ∀ v : Fin 1000, src (ix2 b (codeCol v)) = 0 ∨ src (ix2 b (codeCol v)) = 1)
    (r : Fin 129) (hr : r.val < 128) :
    rowT (ewMat emb) (fun v => src (ix2 b v)) r = ∑ v : Fin 1000, mask src b v * emb (ix2 v ⟨r.val, hr⟩) := by
  rw [rowT_split]
  refine Finset.sum_congr rfl (fun v _ => ?_)
  rw [ew_codeCol_lt emb r hr v, mask_eq src b v (h01 v), mul_comm]

/-- Entry 128 of the first product is the count. -/
theorem rowT_last (src : Mat 16384 1002) (emb : Mat 1000 128) (b : Fin 16384)
    (h01 : ∀ v : Fin 1000, src (ix2 b (codeCol v)) = 0 ∨ src (ix2 b (codeCol v)) = 1) :
    rowT (ewMat emb) (fun v => src (ix2 b v)) (⟨128, by omega⟩ : Fin 129) = count src b := by
  rw [rowT_split]
  unfold count
  refine Finset.sum_congr rfl (fun v _ => ?_)
  rw [ew_codeCol_last emb v, one_mul, mask_eq src b v (h01 v)]

/-! ## The mean -/

/-- Dividing by a nonzero real is multiplying by its reciprocal. -/
theorem div_eq_mul_div_one (t : EReal) (c : ℝ) (hc : c ≠ 0) :
    Ideal.div t (c : EReal) = t * Ideal.div 1 (c : EReal) := by
  rw [Ideal.div_coe hc, Ideal.div_coe hc, one_mul]

/-- The same with the divisor an extended real known to be a nonzero real. -/
theorem div_eq_mul_div_one' (t n : EReal) (c : ℝ) (hn : n = (c : EReal)) (h0 : n ≠ 0) :
    Ideal.div t n = t * Ideal.div 1 n := by
  subst hn
  refine div_eq_mul_div_one t c (fun hc => h0 ?_)
  rw [hc]; rfl

/-! ## The operand of the second product -/

/-- Entry k < 130 of the operand is entry k of the reference's feature row. -/
theorem rowRhs_lt (src : Mat 16384 1002) (emb : Mat 1000 128) (b : Fin 16384)
    (h01 : ∀ v : Fin 1000, src (ix2 b (codeCol v)) = 0 ∨ src (ix2 b (codeCol v)) = 1)
    (hcnt : count src b ≠ 0) (k : Fin 131) (hk : k.val < 130) :
    rowRhs (ewMat emb) (fun v => src (ix2 b v)) (fun d => src (ix2 b (demCol d))) k
      = refX src emb b ⟨k.val, hk⟩ := by
  unfold rowRhs refX
  by_cases h : k.val < 2
  · rw [dif_pos h, dif_pos (show (⟨k.val, hk⟩ : Fin 130).val < 2 from h)]
  · rw [dif_neg h, dif_pos hk, dif_neg (show ¬ (⟨k.val, hk⟩ : Fin 130).val < 2 from h)]
    unfold refMean
    rw [rowT_last src emb b h01,
      rowT_lt src emb b h01 (⟨k.val - 2, by omega⟩ : Fin 129) (show k.val - 2 < 128 by omega)]
    exact (div_eq_mul_div_one' _ _ _ (count_coe src b) hcnt).symm

/-- The same at an index of the feature row. -/
theorem rowRhs_castSucc (src : Mat 16384 1002) (emb : Mat 1000 128) (b : Fin 16384)
    (h01 : ∀ v : Fin 1000, src (ix2 b (codeCol v)) = 0 ∨ src (ix2 b (codeCol v)) = 1)
    (hcnt : count src b ≠ 0) (k : Fin 130) :
    rowRhs (ewMat emb) (fun v => src (ix2 b v)) (fun d => src (ix2 b (demCol d))) k.castSucc
      = refX src emb b k :=
  rowRhs_lt src emb b h01 hcnt k.castSucc k.isLt

/-- The last entry of the operand is the constant 1. -/
theorem rowRhs_last (xs : Mat 129 1002) (xcol : Fin 1002 → EReal) (dcol : Fin 2 → EReal) :
    rowRhs xs xcol dcol (Fin.last 130) = 1 := by
  unfold rowRhs
  exact (dif_neg (show ¬ (Fin.last 130).val < 2 from (by omega : ¬ (130 : ℕ) < 2))).trans
    (dif_neg (show ¬ (Fin.last 130).val < 130 from (by omega : ¬ (130 : ℕ) < 130)))

/-! ## The first weight operand -/

/-- Off its last column the operand is w1 transposed. -/
theorem w1ext_castSucc (w1 : Mat 130 16) (b1 : Vct 16) (j : Fin 16) (k : Fin 130) :
    w1ext w1 b1 (ix2 j k.castSucc) = w1 (ix2 k j) := by
  unfold w1ext
  exact dif_pos (show ((ix2 j k.castSucc) 1).val < 130 from k.isLt)

/-- Its last column is b1. -/
theorem w1ext_last (w1 : Mat 130 16) (b1 : Vct 16) (j : Fin 16) :
    w1ext w1 b1 (ix2 j (Fin.last 130)) = b1 (ix1 j) := by
  unfold w1ext
  exact dif_neg (show ¬ ((ix2 j (Fin.last 130)) 1).val < 130 from (by omega : ¬ (130 : ℕ) < 130))

/-- The hidden units before the tanh agree. -/
theorem rowPre_eq (src : Mat 16384 1002) (emb : Mat 1000 128) (w1 : Mat 130 16) (b1 : Vct 16) (b : Fin 16384)
    (h01 : ∀ v : Fin 1000, src (ix2 b (codeCol v)) = 0 ∨ src (ix2 b (codeCol v)) = 1)
    (hcnt : count src b ≠ 0) (j : Fin 16) :
    rowPre (ewMat emb) (fun v => src (ix2 b v)) (fun d => src (ix2 b (demCol d))) (w1ext w1 b1) j
      = refPre src emb w1 b1 b j := by
  unfold rowPre refPre
  rw [Fin.sum_univ_castSucc, w1ext_last, rowRhs_last, mul_one]
  congr 1
  refine Finset.sum_congr rfl (fun k _ => ?_)
  rw [w1ext_castSucc, rowRhs_castSucc src emb b h01 hcnt k, mul_comm]

/-! ## The second weight operand and the result -/

/-- Entry k < 16 of the operand of the third product is the tanh of the reference's hidden unit. -/
theorem rowH_castSucc (src : Mat 16384 1002) (emb : Mat 1000 128) (w1 : Mat 130 16) (b1 : Vct 16) (b : Fin 16384)
    (h01 : ∀ v : Fin 1000, src (ix2 b (codeCol v)) = 0 ∨ src (ix2 b (codeCol v)) = 1)
    (hcnt : count src b ≠ 0) (k : Fin 16) :
    rowH (ewMat emb) (fun v => src (ix2 b v)) (fun d => src (ix2 b (demCol d))) (w1ext w1 b1) k.castSucc
      = Ideal.tanh (refPre src emb w1 b1 b k) := by
  unfold rowH
  refine (dif_pos (show (k.castSucc).val < 16 from k.isLt)).trans ?_
  exact congrArg Ideal.tanh (rowPre_eq src emb w1 b1 b h01 hcnt k)

/-- Its last entry is the constant 1. -/
theorem rowH_last (xs : Mat 129 1002) (xcol : Fin 1002 → EReal) (dcol : Fin 2 → EReal) (x2 : Mat 16 131) :
    rowH xs xcol dcol x2 (Fin.last 16) = 1 := by
  unfold rowH
  exact dif_neg (show ¬ (Fin.last 16).val < 16 from (by omega : ¬ (16 : ℕ) < 16))

/-- Off its last column the operand is w2 transposed. -/
theorem w2ext_castSucc (w2 : Mat 16 2) (b2 : Vct 2) (o : Fin 2) (k : Fin 16) :
    w2ext w2 b2 (ix2 o k.castSucc) = w2 (ix2 k o) := by
  unfold w2ext
  exact dif_pos (show ((ix2 o k.castSucc) 1).val < 16 from k.isLt)

/-- Its last column is b2. -/
theorem w2ext_last (w2 : Mat 16 2) (b2 : Vct 2) (o : Fin 2) :
    w2ext w2 b2 (ix2 o (Fin.last 16)) = b2 (ix1 o) := by
  unfold w2ext
  exact dif_neg (show ¬ ((ix2 o (Fin.last 16)) 1).val < 16 from (by omega : ¬ (16 : ℕ) < 16))

/-- For a row of src whose code entries are all 0 or 1 and whose count is not zero, the kernel's formula and
    the reference's formula give the same output. -/
theorem kerOut_eq_refOut (src : Cert.Forms.Mat 16384 1002) (emb : Cert.Forms.Mat 1000 128)
    (w1 : Cert.Forms.Mat 130 16) (b1 : Cert.Forms.Vct 16) (w2 : Cert.Forms.Mat 16 2) (b2 : Cert.Forms.Vct 2)
    (b : Fin 16384)
    (h01 : ∀ v : Fin 1000, src (ValueIdx.ix2 b (Cert.Forms.codeCol v)) = 0
      ∨ src (ValueIdx.ix2 b (Cert.Forms.codeCol v)) = 1)
    (hcnt : Cert.Forms.count src b ≠ 0) (o : Fin 2) :
    Cert.Forms.kerOut src emb w1 b1 w2 b2 b o = Cert.Forms.refOut src emb w1 b1 w2 b2 b o := by
  unfold kerOut rowOut refOut
  rw [Fin.sum_univ_castSucc, w2ext_last, rowH_last, mul_one]
  congr 1
  refine Finset.sum_congr rfl (fun k _ => ?_)
  rw [w2ext_castSucc, rowH_castSucc src emb w1 b1 b h01 hcnt k, mul_comm]

end Cert.Bridge

end
-- ==== Proof.KernelPieces.lean ====
/-
  What one run of the kernel body leaves behind, as values.

  The body has two cases. At the first grid point it stores into the scratch the 129-by-1002 matrix built from the
  embed block, reads it back, and stores the output block computed from it; at every later point it stores nothing
  into the scratch and computes the output block from what the scratch already holds. In both cases the output block
  is ONE whole-block store, whose payload is the body's arithmetic applied to the src block, the scratch contents,
  the top two rows of the src block (a second load of the same staging buffer through a 2-by-2048 rectangle at the
  origin), and the two weight operands.
-/
import proofs.«100113_g32091995636153_cont_8to1_b_1391_22_alg».proof.Defs
import proofs.«100113_g32091995636153_cont_8to1_b_1391_22_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen Idealize.ShloMosaic.ValueIdx

variable {F : FTy → Type} [FloatOps F]

theorem hz : (![0, 0] : Fin 2 → Nat) = fun _ => 0 := funext fun a => by fin_cases a <;> rfl

/-- The top two rows of a src block, as the body's second load of the staging buffer reads them. -/
def top2 (x0 : Vec F S1002x2048 .f32) : Vec F S2x2048 .f32 :=
  View.ld x0 (Rect.unit (s := S1002x2048) ![0, 0] S2x2048.size inb_S1002x2048_S2x2048_0_0)

/-- Entry (d, l) of the top two rows is entry (d, l) of the block. -/
theorem top2_apply (x0 : Vec F S1002x2048 .f32) (d : Fin 2) (l : Fin 2048) :
    top2 x0 (ix2 d l) = x0 (ix2 (⟨d.val, by omega⟩ : Fin 1002) l) := by
  show x0 _ = x0 _
  refine congrArg x0 (funext fun a => Fin.ext ?_)
  match a with
  | ⟨0, _⟩ => show 0 + 1 * d.val = d.val; omega
  | ⟨1, _⟩ => show 0 + 1 * l.val = l.val; omega

/-- The first grid point leaves in the scratch the matrix built from the embed block. -/
theorem sout_A (c : Dev nD) (i : grid0.Coords) (arg1 : Memref sig .tc .vmem S1002x2048 .f32) (harg1 : arg1.IsWhole) (arg2 : Memref sig .tc .vmem S1000x128 .f32) (harg2 : arg2.IsWhole) (arg3 : Memref sig .tc .vmem S16x131 .f32) (harg3 : arg3.IsWhole) (arg4 : Memref sig .tc .vmem S2x17 .f32) (harg4 : arg4.IsWhole) (arg5 : Memref sig .tc .vmem S2x2048 .f32) (harg5 : arg5.IsWhole) (arg6 : Memref sig .tc .vmem S129x1002 .bf16) (harg6 : arg6.IsWhole) (hc0 : cond0_0 i)
    (x0 : Vec F S1002x2048 .f32) (x1 : Vec F S1000x128 .f32) (x2 : Vec F S16x131 .f32) (x3 : Vec F S2x17 .f32) :
    sout0_A_0 c i arg1 harg1 arg2 harg2 arg3 harg3 arg4 harg4 arg5 harg5 arg6 harg6 hc0 x0 x1 x2 x3 = k0_pay1 x1 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  rw [View.canon_unit_zero hz]
  simp only [View.readAt_eq_ld, harg2.read_unread, View.ld_unit_zero (S := S1000x128) hz]

/-- The first grid point leaves in the output block the body's arithmetic over the matrix it has just built. -/
theorem out_A (c : Dev nD) (i : grid0.Coords) (arg1 : Memref sig .tc .vmem S1002x2048 .f32) (harg1 : arg1.IsWhole) (arg2 : Memref sig .tc .vmem S1000x128 .f32) (harg2 : arg2.IsWhole) (arg3 : Memref sig .tc .vmem S16x131 .f32) (harg3 : arg3.IsWhole) (arg4 : Memref sig .tc .vmem S2x17 .f32) (harg4 : arg4.IsWhole) (arg5 : Memref sig .tc .vmem S2x2048 .f32) (harg5 : arg5.IsWhole) (arg6 : Memref sig .tc .vmem S129x1002 .bf16) (harg6 : arg6.IsWhole) (hc0 : cond0_0 i)
    (x0 : Vec F S1002x2048 .f32) (x1 : Vec F S1000x128 .f32) (x2 : Vec F S16x131 .f32) (x3 : Vec F S2x17 .f32) :
    out0_A_4 c i arg1 harg1 arg2 harg2 arg3 harg3 arg4 harg4 arg5 harg5 arg6 harg6 hc0 x0 x1 x2 x3 = k0_pay2 x0 (k0_pay1 x1) (top2 x0) x2 x3 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_unit_zero hz, View.readCov_unit_zero (S := S129x1002) _ hz]
  simp only [View.readAt_eq_ld, harg1.read_unread, harg2.read_unread, harg3.read_unread, harg4.read_unread,
    View.ld_unit_zero (S := S1002x2048) hz, View.ld_unit_zero (S := S1000x128) hz, View.ld_unit_zero (S := S16x131) hz,
    View.ld_unit_zero (S := S2x17) hz]
  rfl

/-- A later grid point leaves in the output block the body's arithmetic over the scratch as it finds it. -/
theorem out_B (c : Dev nD) (i : grid0.Coords) (arg1 : Memref sig .tc .vmem S1002x2048 .f32) (harg1 : arg1.IsWhole) (arg2 : Memref sig .tc .vmem S1000x128 .f32) (harg2 : arg2.IsWhole) (arg3 : Memref sig .tc .vmem S16x131 .f32) (harg3 : arg3.IsWhole) (arg4 : Memref sig .tc .vmem S2x17 .f32) (harg4 : arg4.IsWhole) (arg5 : Memref sig .tc .vmem S2x2048 .f32) (harg5 : arg5.IsWhole) (arg6 : Memref sig .tc .vmem S129x1002 .bf16) (harg6 : arg6.IsWhole) (hc0 : ¬cond0_0 i)
    (x0 : Vec F S1002x2048 .f32) (x1 : Vec F S1000x128 .f32) (x2 : Vec F S16x131 .f32) (x3 : Vec F S2x17 .f32) (xs0 : Vec F S129x1002 .bf16) :
    out0_B_4 c i arg1 harg1 arg2 harg2 arg3 harg3 arg4 harg4 arg5 harg5 arg6 harg6 hc0 x0 x1 x2 x3 xs0 = k0_pay2 x0 xs0 (top2 x0) x2 x3 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  sl_unfold_words
  rw [View.canon_unit_zero hz]
  simp only [View.readAt_eq_ld, harg1.read_unread, harg3.read_unread, harg4.read_unread, harg6.read_unread,
    View.ld_unit_zero (S := S1002x2048) hz, View.ld_unit_zero (S := S16x131) hz, View.ld_unit_zero (S := S2x17) hz,
    View.ld_unit_zero (S := S129x1002) hz]
  rfl

end Cert.KernelIdeal.Pieces

end
-- ==== Proof.KernelBlocks.lean ====
/-
  The blocks the pipeline hands the body, and what the output's staging buffer and the scratch hold after each point.

  The grid has 8 points. Point t reads columns 2048 t .. 2048 t + 2047 of the transposed src (all 1002 rows) and the
  whole of embed and of the two weight operands, and writes columns 2048 t .. 2048 t + 2047 of the 2-by-16384 result.
  The scratch is written at point 0 only, with the matrix built from embed, and carried unchanged from then on: by
  induction on the point it always holds that matrix, and the output block after point t is the body's arithmetic on
  point t's src block and that matrix.
-/
import proofs.«100113_g32091995636153_cont_8to1_b_1391_22_alg».proof.Defs
import proofs.«100113_g32091995636153_cont_8to1_b_1391_22_alg».proof.Proof.Gen.KernelIdeal.Frame
import proofs.«100113_g32091995636153_cont_8to1_b_1391_22_alg».proof.Proof.KernelPieces
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Pieces Idealize.ShloMosaic.ValueIdx

variable {F : FTy → Type} [FloatOps F]
variable (m : (ℓ : Loc nD τ sig) → Buf (Elt F) ℓ)

/-- The block indices of the five windows at point t: the src window and the result window move along the lanes,
    the other three stay at the origin. -/
theorem idx_facts : ∀ t : Fin cfg0.N,
    (win0_0.index t 0 = 0 ∧ win0_0.index t 1 = t.val) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = t.val) :=
  (by decide +kernel : ∀ t : Fin grid0.N,
    (win0_0.index t 0 = 0 ∧ win0_0.index t 1 = t.val) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = t.val))

theorem t_lt (t : Fin cfg0.N) : t.val < 8 := lt_of_lt_of_eq t.isLt (show cfg0.N = 8 from N_0)

/-- The lane 2048 t + l of the whole array that lane l of point t's block is. -/
abbrev lane (t : Fin cfg0.N) (l : Fin 2048) : Fin 16384 := ⟨2048 * t.val + l.val, by have := t_lt t; omega⟩

/-- Entry (v, l) of point t's src block is entry (v, 2048 t + l) of the transposed src. -/
theorem iblk0_apply (c : Dev nD) (t : Fin cfg0.N) (v : Fin 1002) (l : Fin 2048) :
    (iblk m c 0 t : S1002x2048.Idx → Elt F .f32) (ix2 v l) = (V m c main_v0 : S1002x16384.Idx → Elt F .f32) (ix2 v (lane t l)) := by
  unfold iblk
  rw [View.read_apply]
  show V m c main_v0 _ = V m c main_v0 _
  refine congrArg _ (funext fun a => Fin.ext ?_)
  match a with
  | ⟨0, _⟩ => show win0_0.index t 0 * 1002 + 1 * v.val = v.val; rw [(idx_facts t).1.1]; omega
  | ⟨1, _⟩ => show win0_0.index t 1 * 2048 + 1 * l.val = 2048 * t.val + l.val; rw [(idx_facts t).1.2]; omega

/-- Every point's embed block is the whole of embed. -/
theorem iblk1_eq (c : Dev nD) (t : Fin cfg0.N) : (iblk m c 1 t : S1000x128.Idx → Elt F .f32) = V m c main_arg1 := by
  funext y
  unfold iblk
  rw [View.read_apply]
  show V m c main_arg1 _ = V m c main_arg1 _
  refine congrArg _ (funext fun a => Fin.ext ?_)
  match a with
  | ⟨0, _⟩ => show win0_1.index t 0 * 1000 + 1 * (y 0).val = (y 0).val; rw [(idx_facts t).2.1.1]; omega
  | ⟨1, _⟩ => show win0_1.index t 1 * 128 + 1 * (y 1).val = (y 1).val; rw [(idx_facts t).2.1.2]; omega

/-- Every point's block of the first weight operand is the whole operand. -/
theorem iblk2_eq (c : Dev nD) (t : Fin cfg0.N) : (iblk m c 2 t : S16x131.Idx → Elt F .f32) = V m c main_v3 := by
  funext y
  unfold iblk
  rw [View.read_apply]
  show V m c main_v3 _ = V m c main_v3 _
  refine congrArg _ (funext fun a => Fin.ext ?_)
  match a with
  | ⟨0, _⟩ => show win0_2.index t 0 * 16 + 1 * (y 0).val = (y 0).val; rw [(idx_facts t).2.2.1.1]; omega
  | ⟨1, _⟩ => show win0_2.index t 1 * 131 + 1 * (y 1).val = (y 1).val; rw [(idx_facts t).2.2.1.2]; omega

/-- Every point's block of the second weight operand is the whole operand. -/
theorem iblk3_eq (c : Dev nD) (t : Fin cfg0.N) : (iblk m c 3 t : S2x17.Idx → Elt F .f32) = V m c main_v6 := by
  funext y
  unfold iblk
  rw [View.read_apply]
  show V m c main_v6 _ = V m c main_v6 _
  refine congrArg _ (funext fun a => Fin.ext ?_)
  match a with
  | ⟨0, _⟩ => show win0_3.index t 0 * 2 + 1 * (y 0).val = (y 0).val; rw [(idx_facts t).2.2.2.1.1]; omega
  | ⟨1, _⟩ => show win0_3.index t 1 * 17 + 1 * (y 1).val = (y 1).val; rw [(idx_facts t).2.2.2.1.2]; omega

/-- The matrix the first point builds, from the whole of embed. -/
abbrev built (c : Dev nD) : Vec F S129x1002 .bf16 := k0_pay1 (V m c main_arg1 : S1000x128.Idx → Elt F .f32)

/-- What the output's staging buffer holds after point t, once the scratch is known to hold the built matrix. -/
abbrev outBlock (c : Dev nD) (t : Fin cfg0.N) : Vec F S2x2048 .f32 :=
  k0_pay2 (iblk m c 0 t) (built m c) (top2 (iblk m c 0 t)) (V m c main_v3) (V m c main_v6)

/-- After every point the scratch holds the built matrix and the output's staging buffer the body's arithmetic on the
    point's src block and that matrix: by induction on the point. -/
theorem outsAt_eq (c : Dev nD) : ∀ (n : ℕ) (h : n < cfg0.N), outsAt0 m c n h = (outBlock m c ⟨n, h⟩, built m c)
  | 0, h => by
    rw [outsAt0_A m c ⟨0, h⟩ rfl, out_A, sout_A, iblk1_eq, iblk2_eq, iblk3_eq]
  | n + 1, h => by
    have hN : cfg0.N = 8 := N_0
    have hB : ¬(⟨n + 1, h⟩ : Fin cfg0.N).val % 8 = 0 := by dsimp only; omega
    rw [outsAt0_B m c ⟨n + 1, h⟩ hB, out_B]
    unfold sout0_B_0
    show (k0_pay2 _ (outsAt0 m c n _).2 _ _ _, (outsAt0 m c n _).2) = _
    rw [outsAt_eq c n, iblk2_eq, iblk3_eq]

end Cert.KernelIdeal.Blocks

end
-- ==== Proof.KernelHost.lean ====
/-
  What the region finds in the three arrays the host operations before it compute, at the ideal instance:
  the transposed src (entry (v, b) is src (b, v)), and the two weight operands — w1 with b1 appended as a last row,
  transposed, and w2 with b2 appended as a last row, transposed — which are the functions `w1ext` and `w2ext`.
-/
import proofs.«100113_g32091995636153_cont_8to1_b_1391_22_alg».proof.Defs
import proofs.«100113_g32091995636153_cont_8to1_b_1391_22_alg».proof.Proof.Gen.KernelIdeal.Frame
import proofs.«100113_g32091995636153_cont_8to1_b_1391_22_alg».proof.Proof.Forms
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem

namespace Cert.KernelIdeal.HostSide

open Cert.KernelIdeal Cert.KernelIdeal.Gen Idealize.ShloMosaic.ValueIdx

variable (m : (ℓ : Loc nD τ sig) → Buf (Elt Ideal) ℓ)

/-- The region's first operand is the transpose of src. -/
theorem V_v0 (c : Dev nD) : (V m c main_v0 : S1002x16384.Idx → EReal)
    = transpose S1002x16384 [1, 0] (m ((c : Thread nD τ).loc main_arg0)) transposes_S16384x1002_S1002x16384_1_0 := by
  show StableHlo.after hostOps0 (fun b => m (c, b)) (Proc.devRef .tc main_v0) = _
  after_results

/-- Entry (v, b) of the transposed src is src (b, v). -/
theorem V_v0_apply (c : Dev nD) (v : Fin 1002) (b : Fin 16384) :
    (V m c main_v0 : S1002x16384.Idx → EReal) (ix2 v b) = (m ((c : Thread nD τ).loc main_arg0) : S16384x1002.Idx → EReal) (ix2 b v) := by
  rw [V_v0]
  exact transpose_ix2_apply _ _ v b

/-- A vector [n] laid out as one row [1,n], read at (0, j), is the vector at j. -/
theorem row_of_vec_apply {n : Nat} (x : (⟨1, ![n]⟩ : Shape).Idx → EReal)
    (h : (⟨1, ![n]⟩ : Shape).BroadcastsInDim ⟨2, ![1, n]⟩ ![1]) (j : Fin n) :
    broadcastInDim ⟨2, ![1, n]⟩ ![1] h x (ix2 (0 : Fin 1) j) = x (ix1 j) := by
  refine broadcastInDim_apply ![1] h x _ (ix1 j) fun a => ?_
  match a with
  | ⟨0, _⟩ =>
    show j.val = if n = 1 then 0 else j.val
    split
    · have := j.isLt; omega
    · rfl

/-- A matrix [a,n] with one extra row [1,n] appended below, then transposed, read at (j, k): row k of the matrix
    at column j while k < a, the extra row at column j for k = a. -/
theorem appended_transposed_apply {a n : Nat} (w : (⟨2, ![a, n]⟩ : Shape).Idx → EReal) (r : (⟨2, ![1, n]⟩ : Shape).Idx → EReal)
    (hc : Shape.Concatenates [(⟨2, ![a, n]⟩ : Shape), ⟨2, ![1, n]⟩] ⟨2, ![a + 1, n]⟩ 0)
    (ht : (⟨2, ![a + 1, n]⟩ : Shape).Transposes [1, 0] ⟨2, ![n, a + 1]⟩) (j : Fin n) (k : Fin (a + 1)) :
    transpose ⟨2, ![n, a + 1]⟩ [1, 0] (concatenate ⟨2, ![a + 1, n]⟩ 0 [⟨⟨2, ![a, n]⟩, w⟩, ⟨⟨2, ![1, n]⟩, r⟩] hc) ht (ix2 j k)
      = if h : k.val < a then w (ix2 (⟨k.val, h⟩ : Fin a) j) else r (ix2 (0 : Fin 1) j) := by
  rw [transpose_ix2_apply]
  split
  · next h =>
    refine concatenate_pair_apply_left 0 w r hc (ix2 k j) rfl (ix2 (⟨k.val, h⟩ : Fin a) j) fun b => ?_
    match b with
    | ⟨0, _⟩ => rfl
    | ⟨1, _⟩ => rfl
  · next h =>
    refine concatenate_pair_apply_right 0 w r hc (ix2 k j) rfl rfl (ix2 (0 : Fin 1) j) (fun b hb => ?_) ?_
    · match b with
      | ⟨0, _⟩ => exact absurd rfl hb
      | ⟨1, _⟩ => rfl
    · show 0 + a = k.val
      have := k.isLt; omega

/-- The region's third operand is w1 with b1 appended, transposed. -/
theorem V_v3_eq (c : Dev nD) : (V m c main_v3 : S16x131.Idx → EReal)
    = Cert.Forms.w1ext (m ((c : Thread nD τ).loc main_arg2)) (m ((c : Thread nD τ).loc main_arg3)) := by
  have e : (V m c main_v3 : S16x131.Idx → EReal)
      = transpose S16x131 [1, 0] (concatenate S131x16 0 [⟨S130x16, m ((c : Thread nD τ).loc main_arg2)⟩, ⟨S1x16, broadcastInDim S1x16 ![1] bcast_S16_S1x16_1 (m ((c : Thread nD τ).loc main_arg3))⟩] concatenates_S130x16_S1x16_S131x16_d0) transposes_S131x16_S16x131_1_0 := by
    show StableHlo.after hostOps0 (fun b => m (c, b)) (Proc.devRef .tc main_v3) = _
    after_results
  rw [e]
  funext i
  obtain ⟨j, k, rfl⟩ : ∃ (j : Fin 16) (k : Fin 131), i = ix2 j k := ⟨i 0, i 1, eq_ix2 i⟩
  refine (appended_transposed_apply (a := 130) (n := 16) _ _ concatenates_S130x16_S1x16_S131x16_d0 transposes_S131x16_S16x131_1_0 j k).trans ?_
  unfold Cert.Forms.w1ext
  show _ = if h : k.val < 130 then _ else _
  split
  · rfl
  · exact row_of_vec_apply _ _ j

/-- The region's fourth operand is w2 with b2 appended, transposed. -/
theorem V_v6_eq (c : Dev nD) : (V m c main_v6 : S2x17.Idx → EReal)
    = Cert.Forms.w2ext (m ((c : Thread nD τ).loc main_arg4)) (m ((c : Thread nD τ).loc main_arg5)) := by
  have e : (V m c main_v6 : S2x17.Idx → EReal)
      = transpose S2x17 [1, 0] (concatenate S17x2 0 [⟨S16x2, m ((c : Thread nD τ).loc main_arg4)⟩, ⟨S1x2, broadcastInDim S1x2 ![1] bcast_S2_S1x2_1 (m ((c : Thread nD τ).loc main_arg5))⟩] concatenates_S16x2_S1x2_S17x2_d0) transposes_S17x2_S2x17_1_0 := by
    show StableHlo.after hostOps0 (fun b => m (c, b)) (Proc.devRef .tc main_v6) = _
    after_results
  rw [e]
  funext i
  obtain ⟨j, k, rfl⟩ : ∃ (j : Fin 2) (k : Fin 17), i = ix2 j k := ⟨i 0, i 1, eq_ix2 i⟩
  refine (appended_transposed_apply (a := 16) (n := 2) _ _ concatenates_S16x2_S1x2_S17x2_d0 transposes_S17x2_S2x17_1_0 j k).trans ?_
  unfold Cert.Forms.w2ext
  show _ = if h : k.val < 16 then _ else _
  split
  · rfl
  · exact row_of_vec_apply _ _ j

end Cert.KernelIdeal.HostSide

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.PayloadRead.lean ====
/-
  The two values the kernel body stores, read entry by entry at the ideal instance.

  The first grid point stores a 129-by-1002 matrix built from the embed block: two zero columns in front of the
  block transposed (rows 0..127), over a row that is two zeros followed by ones (row 128). Entry (r, v) of a join of
  arrays along an axis is an entry of the piece that holds the coordinate on that axis, so the entry is decided by
  v < 2 and r < 128: that is `Cert.Forms.ew`.

  Every grid point stores a 2-by-2048 array. Column l of it depends only on column l of the operands: each of the three
  contractions is a plain matrix product, so its entry (p, l) is a sum over the contracted index of a left entry times a
  right entry in column l; the slices, the row broadcast, the quotient, the product and the tanh act entry by entry; and
  the joins along axis 0 pick, for row k, the piece that holds k. Rounding to the narrower format is the identity on the
  extended reals, a cast to the same shape is the identity, and the constant patterns are the numbers 0 and 1. Going
  from the last product inward gives `Cert.Forms.rowOut` on column l.
-/
import proofs.«100113_g32091995636153_cont_8to1_b_1391_22_alg».proof.Proof.Gen.KernelIdeal.Skeleton
import proofs.«100113_g32091995636153_cont_8to1_b_1391_22_alg».proof.Proof.Forms
import proofs.«100113_g32091995636153_cont_8to1_b_1391_22_alg».proof.Proof.LibPlainDot
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.PayloadRead

open Idealize.ShloMosaic Idealize.ShloMosaic.ValueIdx Cert.KernelIdeal Cert.KernelIdeal.Gen

/-! ## The scalar constants -/

theorem one_f32 : (Scalar.ofBits .f32 0x3F800000#32 : Ideal .f32) = 1 := Ideal.ofBits_one_f32
theorem one_bf16 : (Scalar.ofBits .bf16 0x3F80#16 : Ideal .bf16) = 1 := Ideal.ofBits_one_bf16
theorem zero_bf16 : (Scalar.ofBits .bf16 0x0000#16 : Ideal .bf16) = 0 := Ideal.ofBits_zero_bf16

/-! ## Two arrays joined along an axis, read at an index -/

section Join
variable {α : Type}

theorem join_cols_left {a n1 n2 n : ℕ} (x1 : (⟨2, ![a, n1]⟩ : Shape).Idx → α) (x2 : (⟨2, ![a, n2]⟩ : Shape).Idx → α)
    (h : Shape.Concatenates [(⟨2, ![a, n1]⟩ : Shape), ⟨2, ![a, n2]⟩] ⟨2, ![a, n]⟩ 1) (p : Fin a) (c : Fin n) (hc : c.val < n1) :
    concatenate ⟨2, ![a, n]⟩ 1 [⟨_, x1⟩, ⟨_, x2⟩] h (ix2 p c) = x1 (ix2 p ⟨c.val, hc⟩) :=
  concatenate_pair_apply_left 1 x1 x2 h (ix2 p c) rfl (ix2 p ⟨c.val, hc⟩)
    (fun b => match b with | ⟨0, _⟩ => rfl | ⟨1, _⟩ => rfl)

theorem join_cols_right {a n1 n2 n : ℕ} (x1 : (⟨2, ![a, n1]⟩ : Shape).Idx → α) (x2 : (⟨2, ![a, n2]⟩ : Shape).Idx → α)
    (h : Shape.Concatenates [(⟨2, ![a, n1]⟩ : Shape), ⟨2, ![a, n2]⟩] ⟨2, ![a, n]⟩ 1) (p : Fin a) (c : Fin n) (hc : n1 ≤ c.val)
    (hlt : c.val - n1 < n2) :
    concatenate ⟨2, ![a, n]⟩ 1 [⟨_, x1⟩, ⟨_, x2⟩] h (ix2 p c) = x2 (ix2 p ⟨c.val - n1, hlt⟩) :=
  concatenate_pair_apply_right 1 x1 x2 h (ix2 p c) rfl rfl (ix2 p ⟨c.val - n1, hlt⟩)
    (fun b hb => match b, hb with | ⟨0, _⟩, _ => rfl | ⟨1, _⟩, hb => absurd rfl hb)
    (by show (c.val - n1) + n1 = c.val; omega)

theorem join_rows_left {n1 n2 n b : ℕ} (x1 : (⟨2, ![n1, b]⟩ : Shape).Idx → α) (x2 : (⟨2, ![n2, b]⟩ : Shape).Idx → α)
    (h : Shape.Concatenates [(⟨2, ![n1, b]⟩ : Shape), ⟨2, ![n2, b]⟩] ⟨2, ![n, b]⟩ 0) (r : Fin n) (c : Fin b) (hr : r.val < n1) :
    concatenate ⟨2, ![n, b]⟩ 0 [⟨_, x1⟩, ⟨_, x2⟩] h (ix2 r c) = x1 (ix2 ⟨r.val, hr⟩ c) :=
  concatenate_pair_apply_left 0 x1 x2 h (ix2 r c) rfl (ix2 ⟨r.val, hr⟩ c)
    (fun b => match b with | ⟨0, _⟩ => rfl | ⟨1, _⟩ => rfl)

theorem join_rows_right {n1 n2 n b : ℕ} (x1 : (⟨2, ![n1, b]⟩ : Shape).Idx → α) (x2 : (⟨2, ![n2, b]⟩ : Shape).Idx → α)
    (h : Shape.Concatenates [(⟨2, ![n1, b]⟩ : Shape), ⟨2, ![n2, b]⟩] ⟨2, ![n, b]⟩ 0) (r : Fin n) (c : Fin b) (hr : n1 ≤ r.val)
    (hlt : r.val - n1 < n2) :
    concatenate ⟨2, ![n, b]⟩ 0 [⟨_, x1⟩, ⟨_, x2⟩] h (ix2 r c) = x2 (ix2 ⟨r.val - n1, hlt⟩ c) :=
  concatenate_pair_apply_right 0 x1 x2 h (ix2 r c) rfl rfl (ix2 ⟨r.val - n1, hlt⟩ c)
    (fun b hb => match b, hb with | ⟨0, _⟩, hb => absurd rfl hb | ⟨1, _⟩, _ => rfl)
    (by show (r.val - n1) + n1 = r.val; omega)

end Join

/-! ## The matrix the first grid point builds -/

theorem pay1_apply (x1 : Vec Ideal Cert.KernelIdeal.S1000x128 .f32) (r : Fin 129) (v : Fin 1002) :
    Cert.KernelIdeal.Gen.k0_pay1 (F := Ideal) x1 (ValueIdx.ix2 r v) = Cert.Forms.ew x1 r v := by
  unfold Cert.KernelIdeal.Gen.k0_pay1 Cert.Forms.ew
  refine (congrFun (shapeCast_self _ _) _).trans ?_
  by_cases hr : r.val < 128
  · refine (join_rows_left _ _ _ r v hr).trans ?_
    by_cases hv : v.val < 2
    · refine (join_cols_left _ _ _ ⟨r.val, hr⟩ v hv).trans ?_
      rw [dif_pos hv]
      exact zero_bf16
    · refine (join_cols_right _ _ _ ⟨r.val, hr⟩ v (by omega) (by have := v.isLt; omega)).trans ?_
      rw [dif_neg hv, dif_pos hr]
      exact transpose_ix2_apply x1 _ _ _
  · have hlt : r.val - 128 < 1 := by have := r.isLt; omega
    refine (join_rows_right _ _ _ r v (by omega) hlt).trans ?_
    by_cases hv : v.val < 2
    · refine (join_cols_left _ _ _ ⟨r.val - 128, hlt⟩ v hv).trans ?_
      rw [dif_pos hv]
      exact zero_bf16
    · refine (join_cols_right _ _ _ ⟨r.val - 128, hlt⟩ v (by omega) (by have := v.isLt; omega)).trans ?_
      rw [dif_neg hv, dif_neg hr]
      exact one_bf16

/-! ## The three contractions: each is a plain matrix product -/

section Dots

abbrev D1 := dot_S129x1002_S1002x2048_S129x2048_1_0_0_1_n_n
abbrev D2 := dot_S16x131_S131x2048_S16x2048_1_0_0_1_n_n
abbrev D3 := dot_S2x17_S17x2048_S2x2048_1_0_0_1_n_n

theorem d1_l0 (i : S129x2048.Idx) (q : D1.contr.Idx) : (D1.lhsIdx i q 0).val = (i 0).val := by
  unfold DotDims.lhsIdx
  rw [dif_neg (show ¬(0 : Fin S129x1002.rank) ∈ D1.lhsBatch by decide), dif_pos (show (0 : Fin S129x1002.rank) ∈ D1.lhsNonContracting by decide)]
  rfl
theorem d1_l1 (i : S129x2048.Idx) (q : D1.contr.Idx) : (D1.lhsIdx i q 1).val = (q ⟨0, by decide⟩).val :=
  D1.lhsIdx_val_of_single rfl i q
theorem d1_r0 (i : S129x2048.Idx) (q : D1.contr.Idx) : (D1.rhsIdx i q 0).val = (q ⟨0, by decide⟩).val :=
  D1.rhsIdx_val_of_single rfl i q
theorem d1_r1 (i : S129x2048.Idx) (q : D1.contr.Idx) : (D1.rhsIdx i q 1).val = (i 1).val := by
  unfold DotDims.rhsIdx
  rw [dif_neg (show ¬(1 : Fin S1002x2048.rank) ∈ D1.rhsBatch by decide), dif_pos (show (1 : Fin S1002x2048.rank) ∈ D1.rhsNonContracting by decide)]
  rfl

theorem d2_l0 (i : S16x2048.Idx) (q : D2.contr.Idx) : (D2.lhsIdx i q 0).val = (i 0).val := by
  unfold DotDims.lhsIdx
  rw [dif_neg (show ¬(0 : Fin S16x131.rank) ∈ D2.lhsBatch by decide), dif_pos (show (0 : Fin S16x131.rank) ∈ D2.lhsNonContracting by decide)]
  rfl
theorem d2_l1 (i : S16x2048.Idx) (q : D2.contr.Idx) : (D2.lhsIdx i q 1).val = (q ⟨0, by decide⟩).val :=
  D2.lhsIdx_val_of_single rfl i q
theorem d2_r0 (i : S16x2048.Idx) (q : D2.contr.Idx) : (D2.rhsIdx i q 0).val = (q ⟨0, by decide⟩).val :=
  D2.rhsIdx_val_of_single rfl i q
theorem d2_r1 (i : S16x2048.Idx) (q : D2.contr.Idx) : (D2.rhsIdx i q 1).val = (i 1).val := by
  unfold DotDims.rhsIdx
  rw [dif_neg (show ¬(1 : Fin S131x2048.rank) ∈ D2.rhsBatch by decide), dif_pos (show (1 : Fin S131x2048.rank) ∈ D2.rhsNonContracting by decide)]
  rfl

theorem d3_l0 (i : S2x2048.Idx) (q : D3.contr.Idx) : (D3.lhsIdx i q 0).val = (i 0).val := by
  unfold DotDims.lhsIdx
  rw [dif_neg (show ¬(0 : Fin S2x17.rank) ∈ D3.lhsBatch by decide), dif_pos (show (0 : Fin S2x17.rank) ∈ D3.lhsNonContracting by decide)]
  rfl
theorem d3_l1 (i : S2x2048.Idx) (q : D3.contr.Idx) : (D3.lhsIdx i q 1).val = (q ⟨0, by decide⟩).val :=
  D3.lhsIdx_val_of_single rfl i q
theorem d3_r0 (i : S2x2048.Idx) (q : D3.contr.Idx) : (D3.rhsIdx i q 0).val = (q ⟨0, by decide⟩).val :=
  D3.rhsIdx_val_of_single rfl i q
theorem d3_r1 (i : S2x2048.Idx) (q : D3.contr.Idx) : (D3.rhsIdx i q 1).val = (i 1).val := by
  unfold DotDims.rhsIdx
  rw [dif_neg (show ¬(1 : Fin S17x2048.rank) ∈ D3.rhsBatch by decide), dif_pos (show (1 : Fin S17x2048.rank) ∈ D3.rhsNonContracting by decide)]
  rfl

/-- The first product at (r, l): row r of the stored matrix against column l of the src block. -/
theorem prod1_apply (xs : FVec Ideal S129x1002 .bf16) (x0 : FVec Ideal S1002x2048 .f32) (r : Fin 129) (l : Fin 2048) :
    matmul (F := Ideal) D1 none xs (truncf .bf16 (shapeCast S1002x2048 x0 shapeCasts_S1002x2048_S1002x2048) bitsLt_bf16_f32)
        (constant S129x2048 .f32 0x00000000#32) (ix2 r l)
      = Cert.Forms.rowT xs (fun v => x0 (ix2 v l)) r := by
  refine (Ideal.matmul_constant_zero_apply D1 none _ _ (ix2 r l)).trans ?_
  refine (Cert.Lib.PlainDot.sum_contr D1 rfl rfl d1_l0 d1_l1 d1_r0 d1_r1 _ _ r l).trans ?_
  rw [shapeCast_self]
  rfl

/-- The second product at (j, l). -/
theorem prod2_apply (x2 : FVec Ideal S16x131 .f32) (R : FVec Ideal S131x2048 .f32) (j : Fin 16) (l : Fin 2048) :
    matmul (F := Ideal) D2 none (shapeCast S16x131 x2 shapeCasts_S16x131_S16x131) R (constant S16x2048 .f32 0x00000000#32) (ix2 j l)
      = ∑ k : Fin 131, x2 (ix2 j k) * R (ix2 k l) := by
  rw [shapeCast_self]
  exact Cert.Lib.PlainDot.matmul_zero_apply D2 rfl rfl d2_l0 d2_l1 d2_r0 d2_r1 none x2 R j l

/-- The third product at (o, l). -/
theorem prod3_apply (x3 : FVec Ideal S2x17 .f32) (H : FVec Ideal S17x2048 .f32) (o : Fin 2) (l : Fin 2048) :
    matmul (F := Ideal) D3 none (shapeCast S2x17 x3 shapeCasts_S2x17_S2x17) H (constant S2x2048 .f32 0x00000000#32) (ix2 o l)
      = ∑ k : Fin 17, x3 (ix2 o k) * H (ix2 k l) := by
  rw [shapeCast_self]
  exact Cert.Lib.PlainDot.matmul_zero_apply D3 rfl rfl d3_l0 d3_l1 d3_r0 d3_r1 none x3 H o l

end Dots

/-! ## The pieces between the products -/

/-- Row e of the first product times the reciprocal of its row 128. -/
theorem mean_apply (T : FVec Ideal S129x2048 .f32) (e : Fin 128) (l : Fin 2048) :
    mulf (F := Ideal) (extractStridedSlice S128x2048 ![0, 0] T slices_S129x2048_o0_0_S128x2048)
        (broadcastTo S128x2048
          (divf (F := Ideal) (broadcast S1x2048 (Scalar.ofBits (F := Ideal) .f32 0x3F800000#32))
            (extractStridedSlice S1x2048 ![128, 0] T slices_S129x2048_o128_0_S1x2048))
          broadcasts_S1x2048_S128x2048) (ix2 e l)
      = T (ix2 (⟨e.val, by have := e.isLt; omega⟩ : Fin 129) l) * Ideal.div 1 (T (ix2 (⟨128, by omega⟩ : Fin 129) l)) := by
  refine (mulf_apply _ _ _).trans ?_
  refine congrArg₂ (· * ·) ?_ ?_
  · exact extractStridedSlice_apply _ T _ (ix2 e l) (ix2 (⟨e.val, by have := e.isLt; omega⟩ : Fin 129) l)
      (fun a => match a with | ⟨0, _⟩ => (Nat.zero_add _).symm | ⟨1, _⟩ => (Nat.zero_add _).symm)
  · refine (broadcastTo_1b_ab_apply _ _ e l).trans ?_
    refine (divf_apply _ _ _).trans ?_
    refine congrArg₂ Ideal.div one_f32 ?_
    exact extractStridedSlice_apply _ T _ (ix2 (0 : Fin 1) l) (ix2 (⟨128, by omega⟩ : Fin 129) l)
      (fun a => match a with | ⟨0, _⟩ => rfl | ⟨1, _⟩ => (Nat.zero_add _).symm)

/-- The 131-row operand at (k, l): the two top rows, the 128 means, a row of ones. -/
theorem rhs_apply (d : FVec Ideal S2x2048 .f32) (m : FVec Ideal S128x2048 .f32) (k : Fin 131) (l : Fin 2048) :
    concatenate S131x2048 0 [⟨S2x2048, shapeCast S2x2048 d shapeCasts_S2x2048_S2x2048⟩, ⟨S128x2048, m⟩,
        ⟨S1x2048, broadcast S1x2048 (Scalar.ofBits (F := Ideal) .f32 0x3F800000#32)⟩]
        concatenates_S2x2048_S128x2048_S1x2048_S131x2048_d0 (ix2 k l)
      = if h : k.val < 2 then d (ix2 (⟨k.val, h⟩ : Fin 2) l)
        else if h2 : k.val < 130 then m (ix2 (⟨k.val - 2, by omega⟩ : Fin 128) l) else 1 := by
  rw [shapeCast_self]
  by_cases h : k.val < 2
  · rw [dif_pos h]
    exact concatenate_apply_piece 0 _ _ (ix2 k l) 0 (by show (0 : ℕ) < 3; omega) S2x2048 d rfl rfl 0 rfl (ix2 (⟨k.val, h⟩ : Fin 2) l)
      (fun b hb => match b, hb with | ⟨0, _⟩, hb => absurd rfl hb | ⟨1, _⟩, _ => rfl) (Nat.zero_add _)
  · rw [dif_neg h]
    by_cases h2 : k.val < 130
    · rw [dif_pos h2]
      exact concatenate_apply_piece 0 _ _ (ix2 k l) 1 (by show (1 : ℕ) < 3; omega) S128x2048 m rfl rfl 2 rfl
        (ix2 (⟨k.val - 2, by omega⟩ : Fin 128) l)
        (fun b hb => match b, hb with | ⟨0, _⟩, hb => absurd rfl hb | ⟨1, _⟩, _ => rfl)
        (by show 2 + (k.val - 2) = k.val; omega)
    · rw [dif_neg h2]
      refine (concatenate_apply_piece 0 _ _ (ix2 k l) 2 (by show (2 : ℕ) < 3; omega) S1x2048 _ rfl rfl 130 rfl
        (ix2 (⟨k.val - 130, by have := k.isLt; omega⟩ : Fin 1) l)
        (fun b hb => match b, hb with | ⟨0, _⟩, hb => absurd rfl hb | ⟨1, _⟩, _ => rfl)
        (by show 130 + (k.val - 130) = k.val; omega)).trans ?_
      exact one_f32

/-- The 17-row operand at (k, l): the 16 hidden units after tanh, a row of ones. -/
theorem hid_apply (P : FVec Ideal S16x2048 .f32) (k : Fin 17) (l : Fin 2048) :
    concatenate S17x2048 0 [⟨S16x2048, tanh (F := Ideal) P⟩,
        ⟨S1x2048, broadcast S1x2048 (Scalar.ofBits (F := Ideal) .f32 0x3F800000#32)⟩]
        concatenates_S16x2048_S1x2048_S17x2048_d0 (ix2 k l)
      = if h : k.val < 16 then Ideal.tanh (P (ix2 (⟨k.val, h⟩ : Fin 16) l)) else 1 := by
  by_cases h : k.val < 16
  · rw [dif_pos h]
    exact join_rows_left _ _ _ k l h
  · rw [dif_neg h]
    exact (join_rows_right _ _ _ k l (by omega) (by have := k.isLt; omega)).trans one_f32

/-! ## What every grid point stores -/

theorem pay2_apply (x0 : Vec Ideal Cert.KernelIdeal.S1002x2048 .f32) (xs : Vec Ideal Cert.KernelIdeal.S129x1002 .bf16) (v14 : Vec Ideal Cert.KernelIdeal.S2x2048 .f32) (x2 : Vec Ideal Cert.KernelIdeal.S16x131 .f32) (x3 : Vec Ideal Cert.KernelIdeal.S2x17 .f32) (o : Fin 2) (l : Fin 2048) :
    Cert.KernelIdeal.Gen.k0_pay2 (F := Ideal) x0 xs v14 x2 x3 (ValueIdx.ix2 o l)
      = Cert.Forms.rowOut xs (fun v => x0 (ValueIdx.ix2 v l)) (fun d => v14 (ValueIdx.ix2 d l)) x2 x3 o := by
  unfold Cert.KernelIdeal.Gen.k0_pay2 Cert.Forms.rowOut
  refine (prod3_apply x3 _ o l).trans ?_
  refine Finset.sum_congr rfl fun k _ => congrArg (x3 (ix2 o k) * ·) ?_
  refine (hid_apply _ k l).trans ?_
  unfold Cert.Forms.rowH
  by_cases hk : k.val < 16
  · rw [dif_pos hk, dif_pos hk]
    refine congrArg Ideal.tanh ?_
    refine (prod2_apply x2 _ ⟨k.val, hk⟩ l).trans ?_
    unfold Cert.Forms.rowPre
    refine Finset.sum_congr rfl fun k' _ => congrArg (x2 (ix2 (⟨k.val, hk⟩ : Fin 16) k') * ·) ?_
    refine (rhs_apply v14 _ k' l).trans ?_
    unfold Cert.Forms.rowRhs
    by_cases h : k'.val < 2
    · rw [dif_pos h, dif_pos h]
    · rw [dif_neg h, dif_neg h]
      by_cases h2 : k'.val < 130
      · rw [dif_pos h2, dif_pos h2]
        refine (mean_apply _ (⟨k'.val - 2, by omega⟩ : Fin 128) l).trans ?_
        exact congrArg₂ (· * ·) (prod1_apply xs x0 _ l) (congrArg (Ideal.div 1) (prod1_apply xs x0 _ l))
      · rw [dif_neg h2, dif_neg h2]
  · rw [dif_neg hk, dif_neg hk]

end Cert.PayloadRead

end
-- ==== Proof.KernelValue.lean ====
/-
  The kernel's run, read as a value: the result array ends holding, at (b, o), the kernel's formula for row b of src
  and output o.

  Point t writes back lanes 2048 t .. 2048 t + 2047 of the 2-by-16384 array the region produces; its block at (o, l)
  is the body's arithmetic on row 2048 t + l of src (the transposed src block's lane l), on the matrix built from embed,
  and on the two weight operands. The eight blocks tile the array, so the array is one function of the arguments; the
  host transpose after the region turns it into the [16384, 2] result.
-/
import proofs.«100113_g32091995636153_cont_8to1_b_1391_22_alg».proof.Defs
import proofs.«100113_g32091995636153_cont_8to1_b_1391_22_alg».proof.Proof.Gen.KernelIdeal.Frame
import proofs.«100113_g32091995636153_cont_8to1_b_1391_22_alg».proof.Proof.Forms
import proofs.«100113_g32091995636153_cont_8to1_b_1391_22_alg».proof.Proof.KernelPieces
import proofs.«100113_g32091995636153_cont_8to1_b_1391_22_alg».proof.Proof.KernelBlocks
import proofs.«100113_g32091995636153_cont_8to1_b_1391_22_alg».proof.Proof.KernelHost
import proofs.«100113_g32091995636153_cont_8to1_b_1391_22_alg».proof.Proof.PayloadRead
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Pieces Cert.KernelIdeal.Blocks Cert.KernelIdeal.HostSide
open Idealize.ShloMosaic.ValueIdx

variable (m : (ℓ : Loc nD τ sig) → Buf (Elt Ideal) ℓ) (ρ : Dev nD → PrngReg)

/-- The six argument arrays on core c. -/
abbrev src (c : Dev nD) : Cert.Forms.Mat 16384 1002 := m ((c : Thread nD τ).loc main_arg0)
abbrev emb (c : Dev nD) : Cert.Forms.Mat 1000 128 := m ((c : Thread nD τ).loc main_arg1)
abbrev w1 (c : Dev nD) : Cert.Forms.Mat 130 16 := m ((c : Thread nD τ).loc main_arg2)
abbrev b1 (c : Dev nD) : Cert.Forms.Vct 16 := m ((c : Thread nD τ).loc main_arg3)
abbrev w2 (c : Dev nD) : Cert.Forms.Mat 16 2 := m ((c : Thread nD τ).loc main_arg4)
abbrev b2 (c : Dev nD) : Cert.Forms.Vct 2 := m ((c : Thread nD τ).loc main_arg5)

/-- The kernel's formula for row b and output o, of core c's arguments. -/
abbrev ker (c : Dev nD) (b : Fin 16384) (o : Fin 2) : EReal :=
  Cert.Forms.kerOut (src m c) (emb m c) (w1 m c) (b1 m c) (w2 m c) (b2 m c) b o

/-- The matrix the first point builds is `ewMat` of embed. -/
theorem built_eq (c : Dev nD) : (built m c : S129x1002.Idx → EReal) = Cert.Forms.ewMat (emb m c) := by
  funext i
  obtain ⟨r, v, rfl⟩ : ∃ (r : Fin 129) (v : Fin 1002), i = ix2 r v := ⟨i 0, i 1, eq_ix2 i⟩
  show k0_pay1 (F := Ideal) (V m c main_arg1) (ix2 r v) = _
  rw [V_main_arg1]
  exact Cert.PayloadRead.pay1_apply _ r v

/-- Entry (v, l) of point t's src block is src at row 2048 t + l, column v. -/
theorem src_block_apply (c : Dev nD) (t : Fin cfg0.N) (v : Fin 1002) (l : Fin 2048) :
    (iblk m c 0 t : S1002x2048.Idx → EReal) (ix2 v l) = src m c (ix2 (lane t l) v) :=
  (iblk0_apply m c t v l).trans (V_v0_apply m c v (lane t l))

/-- Entry (o, l) of what point t leaves in the output's staging buffer: the kernel's formula at row 2048 t + l. -/
theorem outBlock_apply (c : Dev nD) (t : Fin cfg0.N) (o : Fin 2) (l : Fin 2048) :
    (outBlock m c t : S2x2048.Idx → EReal) (ix2 o l) = ker m c (lane t l) o := by
  refine (Cert.PayloadRead.pay2_apply (iblk m c 0 t) (built m c) (top2 (iblk m c 0 t)) (V m c main_v3) (V m c main_v6) o l).trans ?_
  rw [built_eq, V_v3_eq, V_v6_eq]
  have e0 : (fun v : Fin 1002 => (iblk m c 0 t : S1002x2048.Idx → EReal) (ix2 v l)) = fun v => src m c (ix2 (lane t l) v) :=
    funext fun v => src_block_apply m c t v l
  have e1 : (fun d : Fin 2 => (top2 (iblk m c 0 t) : S2x2048.Idx → EReal) (ix2 d l)) = fun d => src m c (ix2 (lane t l) (Cert.Forms.demCol d)) :=
    funext fun d => (top2_apply (iblk m c 0 t) d l).trans (src_block_apply m c t _ l)
  rw [e0, e1]
  rfl

/-- The array the region produces: entry (o, b) is the kernel's formula for row b, output o. -/
def regionOut (c : Dev nD) : Buf (Elt Ideal) ((c : Thread nD τ).loc main_v7) :=
  fun i => ker m c (i 1) (i 0)

/-- What point t writes back is block t of that array. -/
theorem flushed_eq (c : Dev nD) (t : Fin cfg0.N) :
    (dats m 0 c).flushed 4 t = ((cfg0.win 4).blk t).view.read (Elt Ideal) (regionOut m c) := by
  show (cfg0.win 4).cut (grid0.coords t) ((dats m 0 c).after 4 t) = _
  rw [after0_4, outsAt_eq]
  funext j
  obtain ⟨o, l, rfl⟩ : ∃ (o : Fin 2) (l : Fin 2048), j = ix2 o l := ⟨j 0, j 1, eq_ix2 j⟩
  rw [View.read_apply]
  show (outBlock m c t : S2x2048.Idx → EReal) (ix2 o l) = ker m c _ _
  rw [outBlock_apply]
  have h1 : (((cfg0.win 4).blk t).view.emb (ix2 o l)) 1 = lane t l := Fin.ext (by
    show win0_4.index t 1 * 2048 + 1 * l.val = 2048 * t.val + l.val
    rw [(idx_facts t).2.2.2.2.2]; omega)
  have h0 : (((cfg0.win 4).blk t).view.emb (ix2 o l)) 0 = o := Fin.ext (by
    show win0_4.index t 0 * 2 + 1 * o.val = o.val
    rw [(idx_facts t).2.2.2.2.1]; omega)
  rw [h1, h0]

/-- An index of the array is in point t's block iff each coordinate is in the block's range on its axis. -/
theorem mem_blk (t : Fin cfg0.N) (i : S2x16384.Idx) :
    i ∈ ((cfg0.win 4).blk t).view.set ↔ ∀ a : Fin 2, win0_4.index t a * S2x2048.size a ≤ (i a).val ∧ (i a).val < win0_4.index t a * S2x2048.size a + S2x2048.size a := by
  show i ∈ ((View.whole main_v7).slice (win0_4.rect t)).set ↔ _
  rw [View.set_slice_whole, Rect.mem_set_unit]
  exact Iff.rfl

/-- Every index of the array is in the block of the point its lane falls in. -/
theorem cover (i : S2x16384.Idx) : ∃ t : Fin cfg0.N, (cfg0.win 4).flush t = true ∧ i ∈ ((cfg0.win 4).blk t).view.set := by
  have hi0 : (i 0).val < 2 := (i 0).isLt
  have hi1 : (i 1).val < 16384 := (i 1).isLt
  have hN : cfg0.N = 8 := N_0
  refine ⟨⟨(i 1).val / 2048, by rw [hN]; omega⟩, flush0_4 _, ?_⟩
  rw [mem_blk]
  intro a
  match a with
  | ⟨0, _⟩ =>
    show win0_4.index _ 0 * 2 ≤ (i 0).val ∧ (i 0).val < win0_4.index _ 0 * 2 + 2
    rw [(idx_facts _).2.2.2.2.1]; omega
  | ⟨1, _⟩ =>
    show win0_4.index _ 1 * 2048 ≤ (i 1).val ∧ (i 1).val < win0_4.index _ 1 * 2048 + 2048
    rw [(idx_facts _).2.2.2.2.2]; dsimp only; omega

/-- So the array ends holding the kernel's formula everywhere. -/
theorem final (c : Dev nD) : (dats m 0 c).arrAt 4 cfg0.N = regionOut m c :=
  (dats m 0 c).arrAt_eq_of_cover 4 (regionOut m c) (fun t _ => flushed_eq m c t) (cover)

/-- The program's result: entry (b, o) is the kernel's formula for row b, output o. -/
def result (c : Dev nD) : Buf (Elt Ideal) ((c : Thread nD τ).loc main_v8) :=
  fun i => ker m c (i 0) (i 1)

/-- The host transpose after the region turns the region's array into the result. -/
theorem tail_eq (c : Dev nD) :
    Pipeline.afterTail₀ cfgs (dats m) 0 (V0 m) [hostOps1] c main_v8 = result m c := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v7)
      = regionOut m c :=
    (Pipeline.withArrays_arr spec0 launch0.win.arr_inj c _ _ 4).trans (final m c)
  rw [e]
  funext i
  obtain ⟨b, o, rfl⟩ : ∃ (b : Fin 16384) (o : Fin 2), i = ix2 b o := ⟨i 0, i 1, eq_ix2 i⟩
  exact transpose_ix2_apply (regionOut m c) transposes_S2x16384_S16384x2_1_0 b o

/-- The run, read: the result array ends at the kernel's formula and the six arguments end as they began. -/
theorem run : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Final

end
-- ==== Proof.lean ====
/-
  The certificate of one kernel against its reference, over the extended reals.

  Both programs map a batch of 16384 rows — two demographic entries and 1000 code indicators each — to two outputs
  per row: the mean of the embedding rows of the codes present, joined to the demographics, through
  tanh(x · w1 + b1) · w2 + b2. The reference forms the indicator (entry ≠ 0) of every code, counts the indicators,
  and divides the indicator-weighted sum of embedding rows by the count. The kernel works on transposed arrays in
  eight blocks of 2048 rows: it contracts the raw code entries (not their indicators) against embed and against a
  row of ones — giving the entry-weighted sum and the sum of the entries —, multiplies by the reciprocal of that
  sum, and carries the two biases as one more contracted term against a constant 1.

  The two agree where every code entry is 0 or 1 (then the indicator IS the entry) and every row has at least one
  code (then the count is a nonzero real c and t / c = t · (1 / c) on every extended real t); the precondition
  states exactly these two facts beside finiteness. Only commutativity and associativity of + and ·, 0 · x = 0 and
  1 · x = x are used otherwise, so finiteness itself is never opened.

  Modules: Forms (both results as explicit formulas), RefRead (the reference's run is its formula), PreFacts (the
  precondition gives the two facts), KernelPieces / KernelBlocks / KernelHost / PayloadRead / KernelValue (the
  kernel's run is its formula), Bridge (the two formulas agree under the two facts). The three frames are the
  generated ones; no rewrite was applied in idealizing the kernel, so that conjunct is trivial.
-/
import proofs.«100113_g32091995636153_cont_8to1_b_1391_22_alg».proof.Defs
import proofs.«100113_g32091995636153_cont_8to1_b_1391_22_alg».proof.Proof.Gen.Kernel
import proofs.«100113_g32091995636153_cont_8to1_b_1391_22_alg».proof.Proof.Gen.Kernel.Skeleton
import proofs.«100113_g32091995636153_cont_8to1_b_1391_22_alg».proof.Proof.Gen.Kernel.Launch
import proofs.«100113_g32091995636153_cont_8to1_b_1391_22_alg».proof.Proof.Gen.Kernel.Points
import proofs.«100113_g32091995636153_cont_8to1_b_1391_22_alg».proof.Proof.Gen.Kernel.Frame
import proofs.«100113_g32091995636153_cont_8to1_b_1391_22_alg».proof.Proof.Gen.KernelIdeal
import proofs.«100113_g32091995636153_cont_8to1_b_1391_22_alg».proof.Proof.Gen.KernelIdeal.Skeleton
import proofs.«100113_g32091995636153_cont_8to1_b_1391_22_alg».proof.Proof.Gen.KernelIdeal.Launch
import proofs.«100113_g32091995636153_cont_8to1_b_1391_22_alg».proof.Proof.Gen.KernelIdeal.Points
import proofs.«100113_g32091995636153_cont_8to1_b_1391_22_alg».proof.Proof.Gen.KernelIdeal.Frame
import proofs.«100113_g32091995636153_cont_8to1_b_1391_22_alg».proof.Proof.Gen.ReferenceIdeal
import proofs.«100113_g32091995636153_cont_8to1_b_1391_22_alg».proof.Proof.Gen.Pre_finite_inputs
import proofs.«100113_g32091995636153_cont_8to1_b_1391_22_alg».proof.Proof.Gen.ReferenceIdeal.Run
import proofs.«100113_g32091995636153_cont_8to1_b_1391_22_alg».proof.Proof.Gen.ReferenceIdeal.Read
import proofs.«100113_g32091995636153_cont_8to1_b_1391_22_alg».proof.Proof.Forms
import proofs.«100113_g32091995636153_cont_8to1_b_1391_22_alg».proof.Proof.RefRead
import proofs.«100113_g32091995636153_cont_8to1_b_1391_22_alg».proof.Proof.PreFacts
import proofs.«100113_g32091995636153_cont_8to1_b_1391_22_alg».proof.Proof.Bridge
import proofs.«100113_g32091995636153_cont_8to1_b_1391_22_alg».proof.Proof.KernelValue
import Idealize.ShloMosaic.Adequacy
import Idealize.ShloMosaic.Init

noncomputable section

namespace Cert.Proof

open Idealize.ShloMosaic Idealize.ShloMosaic.ValueIdx Idealize.SL.Sem Cert.Kernel

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its run, with the result's value dropped
    exact fun m ρ _ => (θ_run Cert.ReferenceIdeal.defs _ _).mono (fun _ h c => (h c).2)
      (Cert.ReferenceIdeal.Value.run (F := Ideal) m ρ)
  · -- the two results: the kernel's run ends at its formula, the reference's at its own, and under the
    -- precondition's two facts the formulas agree row by row
    intro m ρ m' ρ' hpre hagree
    refine ⟨fun c => Cert.KernelIdeal.Final.result m c, Cert.KernelIdeal.Final.run m ρ, ?_⟩
    refine (θ_run Cert.ReferenceIdeal.defs _ _).mono (fun _ h c => ⟨(h c).1.trans ?_, (h c).2⟩)
      (Cert.ReferenceIdeal.Value.run (F := Ideal) m' ρ')
    rw [Cert.ReferenceIdeal.Read.val_main_v19_eq, (hagree c).1, (hagree c).2.1, (hagree c).2.2.1, (hagree c).2.2.2.1,
      (hagree c).2.2.2.2.1, (hagree c).2.2.2.2.2]
    obtain ⟨h01, hcnt⟩ := Cert.PreFacts.facts_of_pre _ _ _ _ _ _ (hpre c)
    funext i
    obtain ⟨b, o, rfl⟩ : ∃ (b : Fin 16384) (o : Fin 2), i = ix2 b o := ⟨i 0, i 1, eq_ix2 i⟩
    refine (Cert.RefRead.ref_apply _ _ _ _ _ _ b o).trans ?_
    exact (Cert.Bridge.kerOut_eq_refOut _ _ _ _ _ _ b (h01 b) (hcnt b) o).symm⟩

end Cert.Proof

end
